-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x16x4 : Shape := ⟨4, ![256, 512, 16, 4]⟩
abbrev S3x64x128 : Shape := ⟨3, ![3, 64, 128]⟩
abbrev S128x128 : Shape := ⟨2, ![128, 128]⟩
abbrev S2x128 : Shape := ⟨2, ![2, 128]⟩
abbrev S_ : Shape := ⟨0, ![]⟩

class Facts : Prop where
  bcast_S_S256x512x16x4 : S_.BroadcastsInDim S256x512x16x4 (![] : Fin 0 → Fin S256x512x16x4.rank)
  reducesTo_S256x512x16x4_S_d0_1_2_3 : S256x512x16x4.ReducesTo [0, 1, 2, 3] S_
  h_S_ : 0 < S_.numel
  bitsLt_bf16_f32 : FTy.bits .bf16 < FTy.bits .f32
  bcast_S_S3x64x128 : S_.BroadcastsInDim S3x64x128 (![] : Fin 0 → Fin S3x64x128.rank)
  reducesTo_S3x64x128_S_d0_1_2 : S3x64x128.ReducesTo [0, 1, 2] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_v15 : IVec S_ 1) (main_v16 : FVec F S2x128 .f32) (main_cst_4 : FVec F S_ .f32) : IVec S_ 1 :=
  let main_v17 : FVec F S2x128 .f32 := broadcastInDim S2x128 ![] bcast_S_S2x128 main_cst_4
  let main_v18 : IVec S2x128 1 := cmpf .olt main_v16 main_v17
  let main_c_5 : IVec S_ 1 := constantI S_ 1 1#1
  let main_v19 : IVec S_ 1 := (fun x v => Host.reduce IntOp.andi x v reducesTo_S2x128_S_d0_1 h_S_) main_v18 main_c_5
  let main_v20 : IVec S_ 1 := andi main_v15 main_v19
  main_v20

def fn {F : FTy → Type} [FloatOps F] (main_arg0 : FVec F S256x512x16x4 .f32) (main_arg1 : FVec F S3x64x128 .bf16) (main_arg2 : FVec F S128x128 .bf16) (main_arg3 : FVec F S2x128 .f32) : IVec S_ 1 :=
  let main_v0 : FVec F S256x512x16x4 .f32 := Host.absf main_arg0
  let main_cst : FVec F S_ .f32 := constant S_ .f32 0x7F800000#32
  let main_v1 : FVec F S256x512x16x4 .f32 := broadcastInDim S256x512x16x4 ![] bcast_S_S256x512x16x4 main_cst
  let main_v2 : IVec S256x512x16x4 1 := cmpf .olt main_v0 main_v1
  let main_c : IVec S_ 1 := constantI S_ 1 1#1
  let main_v3 : IVec S_ 1 := (fun x v => Host.reduce IntOp.andi x v reducesTo_S256x512x16x4_S_d0_1_2_3 h_S_) main_v2 main_c
  let main_v4 : FVec F S3x64x128 .f32 := (extf .f32 · bitsLt_bf16_f32) main_arg1
  let main_v5 : FVec F S3x64x128 .f32 := Host.absf main_v4
  let main_cst_0 : FVec F S_ .f32 := constant S_ .f32 0x7F800000#32
  let main_v6 : FVec F S3x64x128 .f32 := broadcastInDim S3x64x128 ![] bcast_S_S3x64x128 main_cst_0
  let main_v7 : IVec S3x64x128 1 := cmpf .olt main_v5 main_v6
  let main_c_1 : IVec S_ 1 := constantI S_ 1 1#1
  let main_v8 : IVec S_ 1 := (fun x v => Host.reduce IntOp.andi x v reducesTo_S3x64x128_S_d0_1_2 h_S_) main_v7 main_c_1
  let main_v9 : IVec S_ 1 := andi main_v3 main_v8
  let main_v10 : FVec F S128x128 .f32 := (extf .f32 · bitsLt_bf16_f32) main_arg2
  let main_v11 : FVec F S128x128 .f32 := Host.absf main_v10
  let main_cst_2 : FVec F S_ .f32 := constant S_ .f32 0x7F800000#32
  let main_v12 : FVec F S128x128 .f32 := broadcastInDim S128x128 ![] bcast_S_S128x128 main_cst_2
  let main_v13 : IVec S128x128 1 := cmpf .olt main_v11 main_v12
  let main_c_3 : IVec S_ 1 := constantI S_ 1 1#1
  let main_v14 : IVec S_ 1 := (fun x v => Host.reduce IntOp.andi x v reducesTo_S128x128_S_d0_1 h_S_) main_v13 main_c_3
  let main_v15 : IVec S_ 1 := andi main_v9 main_v14
  let main_v16 : FVec F S2x128 .f32 := Host.absf main_arg3
  let main_cst_4 : FVec F S_ .f32 := constant S_ .f32 0x7F800000#32
  fn_part1 (F := F) main_v15 main_v16 main_cst_4
-- ==== Kernel.lean ====
abbrev S256x512x16x4 : Shape := ⟨4, ![256, 512, 16, 4]⟩
abbrev S3x64x128 : Shape := ⟨3, ![3, 64, 128]⟩
abbrev S128x128 : Shape := ⟨2, ![128, 128]⟩
abbrev S2x128 : Shape := ⟨2, ![2, 128]⟩
abbrev S_ : Shape := ⟨0, ![]⟩
abbrev S3x256x512 : Shape := ⟨3, ![3, 256, 512]⟩
abbrev S1 : Shape := ⟨1, ![1]⟩
abbrev S2 : Shape := ⟨1, ![2]⟩
abbrev S256x256 : Shape := ⟨2, ![256, 256]⟩
abbrev S1x2x1x128 : Shape := ⟨4, ![1, 2, 1, 128]⟩
abbrev S1x2x4x128 : Shape := ⟨4, ![1, 2, 4, 128]⟩
abbrev S2x512 : Shape := ⟨2, ![2, 512]⟩
abbrev S256x512x64 : Shape := ⟨3, ![256, 512, 64]⟩
abbrev S256x512x128 : Shape := ⟨3, ![256, 512, 128]⟩
abbrev S256x512x16x8 : Shape := ⟨4, ![256, 512, 16, 8]⟩
abbrev S4x512x64 : Shape := ⟨3, ![4, 512, 64]⟩
abbrev S4x512x128 : Shape := ⟨3, ![4, 512, 128]⟩
abbrev S544x256 : Shape := ⟨2, ![544, 256]⟩
abbrev S16x256 : Shape := ⟨2, ![16, 256]⟩
abbrev S1x512x64 : Shape := ⟨3, ![1, 512, 64]⟩
abbrev S512x64 : Shape := ⟨2, ![512, 64]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S1x512 : Shape := ⟨2, ![1, 512]⟩
abbrev S1x256 : Shape := ⟨2, ![1, 256]⟩
abbrev S512x128 : Shape := ⟨2, ![512, 128]⟩
abbrev S1x512x128 : Shape := ⟨3, ![1, 512, 128]⟩

abbrev nBuf : Space → Nat
  | .hbm => 50
  | .vmem => 8
  | .smem => 0
  | _ => 0

abbrev bufTy : (tb : Table) → Fin (tcTables nBuf tb) → BufTy
  | .hbm, ⟨0, _⟩ => ⟨S256x512x16x4, .f32⟩
  | .hbm, ⟨1, _⟩ => ⟨S3x64x128, .bf16⟩
  | .hbm, ⟨2, _⟩ => ⟨S128x128, .bf16⟩
  | .hbm, ⟨3, _⟩ => ⟨S2x128, .f32⟩
  | .hbm, ⟨4, _⟩ => ⟨S_, .bf16⟩
  | .hbm, ⟨5, _⟩ => ⟨S3x256x512, .bf16⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S3x256x512, .bf16⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S3x256x512, .bf16⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S3x256x512, .bf16⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S3x256x512, .bf16⟩
  | .hbm, ⟨30, _⟩ => ⟨S_, .bf16⟩
  | .hbm, ⟨31, _⟩ => ⟨S256x256, .bf16⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S256x256, .bf16⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S256x256, .bf16⟩
  | .hbm, ⟨44, _⟩ => ⟨S1x2x1x128, .f32⟩
  | .hbm, ⟨45, _⟩ => ⟨S1x2x4x128, .f32⟩
  | .hbm, ⟨46, _⟩ => ⟨S2x512, .f32⟩
  | .hbm, ⟨47, _⟩ => ⟨S256x512x64, .f32⟩
  | .hbm, ⟨48, _⟩ => ⟨S256x512x128, .f32⟩
  | .hbm, ⟨49, _⟩ => ⟨S256x512x16x8, .f32⟩
  | .local _ .vmem, ⟨0, _⟩ => ⟨S4x512x64, .f32⟩
  | .local _ .vmem, ⟨1, _⟩ => ⟨S4x512x64, .f32⟩
  | .local _ .vmem, ⟨2, _⟩ => ⟨S3x256x512, .bf16⟩
  | .local _ .vmem, ⟨3, _⟩ => ⟨S256x256, .bf16⟩
  | .local _ .vmem, ⟨4, _⟩ => ⟨S2x512, .f32⟩
  | .local _ .vmem, ⟨5, _⟩ => ⟨S4x512x128, .f32⟩
  | .local _ .vmem, ⟨6, _⟩ => ⟨S4x512x128, .f32⟩
  | .local _ .vmem, ⟨7, _⟩ => ⟨S544x256, .bf16⟩
  | _, _ => ⟨S256x512x16x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_c_4 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_c_5 : Ref sig .tc := ⟨.hbm, 24, rfl⟩
abbrev main_call0_v13 : Ref sig .tc := ⟨.hbm, 25, rfl⟩
abbrev main_call0_c_6 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_cst_7 : Ref sig .tc := ⟨.hbm, 30, rfl⟩
abbrev main_call0_v17 : Ref sig .tc := ⟨.hbm, 31, rfl⟩
abbrev main_call0_c_8 : Ref sig .tc := ⟨.hbm, 32, rfl⟩
abbrev main_call0_v18 : Ref sig .tc := ⟨.hbm, 33, rfl⟩
abbrev main_call0_c_9 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_c_10 : Ref sig .tc := ⟨.hbm, 38, rfl⟩
abbrev main_call0_v22 : Ref sig .tc := ⟨.hbm, 39, rfl⟩
abbrev main_call0_c_11 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_v0 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S3x256x512 : S_.BroadcastsInDim S3x256x512 (![] : Fin 0 → Fin S3x256x512.rank)
  bcast_S_S1 : S_.BroadcastsInDim S1 (![] : Fin 0 → Fin S1.rank)
  concatenates_S1_S1_S2_d0 : Shape.Concatenates [S1, S1] S2 0
  bcast_S_S256x256 : S_.BroadcastsInDim S256x256 (![] : Fin 0 → Fin S256x256.rank)
  shapeCasts_S2x128_S1x2x1x128 : S2x128.ShapeCasts S1x2x1x128
  bcast_S1x2x1x128_S1x2x4x128_0_1_2_3 : S1x2x1x128.BroadcastsInDim S1x2x4x128 (![0, 1, 2, 3] : Fin 4 → Fin S1x2x4x128.rank)
  shapeCasts_S1x2x4x128_S2x512 : S1x2x4x128.ShapeCasts S2x512
  shapeCasts_S256x512x16x4_S256x512x64 : S256x512x16x4.ShapeCasts S256x512x64
  shapeCasts_S256x512x128_S256x512x16x8 : S256x512x128.ShapeCasts S256x512x16x8
  inb_S544x256_S16x256_0_0 : ∀ a, (![0, 0] : Fin 2 → Nat) a + S16x256.size a ≤ S544x256.size a
  h_S16x256 : 0 < S16x256.numel
  shapeCasts_S16x256_S16x256 : S16x256.ShapeCasts S16x256
  packedbf16_S544x256_S16x256_0_0 : (Rect.unit (s := S544x256) ![0, 0] S16x256.size inb_S544x256_S16x256_0_0).PackedRows (EltTy.packing .bf16)
  inb_S544x256_S16x256_528_0 : ∀ a, (![528, 0] : Fin 2 → Nat) a + S16x256.size a ≤ S544x256.size a
  packedbf16_S544x256_S16x256_528_0 : (Rect.unit (s := S544x256) ![528, 0] S16x256.size inb_S544x256_S16x256_528_0).PackedRows (EltTy.packing .bf16)
  inb_S4x512x64_S1x512x64_0_0_0 : ∀ a, (![0, 0, 0] : Fin 3 → Nat) a + S1x512x64.size a ≤ S4x512x64.size a
  h_S1x512x64 : 0 < S1x512x64.numel
  shapeCasts_S1x512x64_S512x64 : S1x512x64.ShapeCasts S512x64
  bitsLt_bf16_f32 : FTy.bits .bf16 < FTy.bits .f32
  inb_S544x256_S512x64_16_0 : ∀ a, (![16, 0] : Fin 2 → Nat) a + S512x64.size a ≤ S544x256.size a
  h_S512x64 : 0 < S512x64.numel
  shapeCasts_S512x64_S512x64 : S512x64.ShapeCasts S512x64
  packedbf16_S544x256_S512x64_16_0 : (Rect.unit (s := S544x256) ![16, 0] S512x64.size inb_S544x256_S512x64_16_0).PackedRows (EltTy.packing .bf16)
  inb_S4x512x64_S1x512x64_1_0_0 : ∀ a, (![1, 0, 0] : Fin 3 → Nat) a + S1x512x64.size a ≤ S4x512x64.size a
  inb_S544x256_S512x64_16_64 : ∀ a, (![16, 64] : Fin 2 → Nat) a + S512x64.size a ≤ S544x256.size a
  packedbf16_S544x256_S512x64_16_64 : (Rect.unit (s := S544x256) ![16, 64] S512x64.size inb_S544x256_S512x64_16_64).PackedRows (EltTy.packing .bf16)
  inb_S4x512x64_S1x512x64_2_0_0 : ∀ a, (![2, 0, 0] : Fin 3 → Nat) a + S1x512x64.size a ≤ S4x512x64.size a
  inb_S544x256_S512x64_16_128 : ∀ a, (![16, 128] : Fin 2 → Nat) a + S512x64.size a ≤ S544x256.size a
  packedbf16_S544x256_S512x64_16_128 : (Rect.unit (s := S544x256) ![16, 128] S512x64.size inb_S544x256_S512x64_16_128).PackedRows (EltTy.packing .bf16)
  inb_S4x512x64_S1x512x64_3_0_0 : ∀ a, (![3, 0, 0] : Fin 3 → Nat) a + S1x512x64.size a ≤ S4x512x64.size a
  inb_S544x256_S512x64_16_192 : ∀ a, (![16, 192] : Fin 2 → Nat) a + S512x64.size a ≤ S544x256.size a
  packedbf16_S544x256_S512x64_16_192 : (Rect.unit (s := S544x256) ![16, 192] S512x64.size inb_S544x256_S512x64_16_192).PackedRows (EltTy.packing .bf16)
  inb_S2x512_S2x512_0_0 : ∀ a, (![0, 0] : Fin 2 → Nat) a + S2x512.size a ≤ S2x512.size a
  h_S2x512 : 0 < S2x512.numel
  inb_S544x256_S512x256_15_0 : ∀ a, (![15, 0] : Fin 2 → Nat) a + S512x256.size a ≤ S544x256.size a
  h_S512x256 : 0 < S512x256.numel
  inb_S3x256x512_S1x256x512_0_0_0 : ∀ a, (![0, 0, 0] : Fin 3 → Nat) a + S1x256x512.size a ≤ S3x256x512.size a
  h_S1x256x512 : 0 < S1x256x512.numel
  shapeCasts_S1x256x512_S256x512 : S1x256x512.ShapeCasts S256x512
  inb_S544x256_S512x256_16_0 : ∀ a, (![16, 0] : Fin 2 → Nat) a + S512x256.size a ≤ S544x256.size a
  inb_S3x256x512_S1x256x512_1_0_0 : ∀ a, (![1, 0, 0] : Fin 3 → Nat) a + S1x256x512.size a ≤ S3x256x512.size a
  inb_S544x256_S512x256_17_0 : ∀ a, (![17, 0] : Fin 2 → Nat) a + S512x256.size a ≤ S544x256.size a
  inb_S3x256x512_S1x256x512_2_0_0 : ∀ a, (![2, 0, 0] : Fin 3 → Nat) a + S1x256x512.size a ≤ S3x256x512.size a
  slices_S2x512_o0_0_S1x512 : S2x512.Slices ![0, 0] S1x512
  broadcasts_S1x512_S512x512 : S1x512.Broadcasts S512x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S512x512_o0_0_S512x256 : S512x512.Slices ![0, 0] S512x256
  slices_S2x512_o1_0_S1x256 : S2x512.Slices ![1, 0] S1x256
  broadcasts_S1x256_S512x256 : S1x256.Broadcasts S512x256
  slices_S512x256_o0_0_S512x128 : S512x256.Slices ![0, 0] S512x128
  inb_S4x512x128_S1x512x128_0_0_0 : ∀ a, (![0, 0, 0] : Fin 3 → Nat) a + S1x512x128.size a ≤ S4x512x128.size a
  h_S1x512x128 : 0 < S1x512x128.numel
  shapeCasts_S1x512x128_S512x128 : S1x512x128.ShapeCasts S512x128
  shapeCasts_S512x128_S1x512x128 : S512x128.ShapeCasts S1x512x128
  slices_S512x256_o0_128_S512x128 : S512x256.Slices ![0, 128] S512x128
  inb_S4x512x128_S1x512x128_1_0_0 : ∀ a, (![1, 0, 0] : Fin 3 → Nat) a + S1x512x128.size a ≤ S4x512x128.size a
  slices_S512x512_o0_256_S512x256 : S512x512.Slices ![0, 256] S512x256
  slices_S2x512_o1_256_S1x256 : S2x512.Slices ![1, 256] S1x256
  inb_S4x512x128_S1x512x128_2_0_0 : ∀ a, (![2, 0, 0] : Fin 3 → Nat) a + S1x512x128.size a ≤ S4x512x128.size a
  inb_S4x512x128_S1x512x128_3_0_0 : ∀ a, (![3, 0, 0] : Fin 3 → Nat) a + S1x512x128.size a ≤ S4x512x128.size a
  scatter_S3x256x512_S2_S3x64x128_012_n_12_0_wf : ScatterDims.WF S3x256x512 S2 S3x64x128 [0, 1, 2] [] [1, 2] 0
  scatter_S256x256_S2_S128x128_01_n_01_0_wf : ScatterDims.WF S256x256 S2 S128x128 [0, 1] [] [0, 1] 0
  dot_S512x256_S256x512_S512x512_1_0_0_1_n_n_wf : DotDims.WF S512x256 S256x512 S512x512 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x64.size a ≤ S256x512x64.size a
  hwx0_0 : ∀ i : grid0.Coords, EltTy.bits .f32 = 32 ∨ (Rect.block (s := S256x512x64) S4x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x512.size a ≤ S3x256x512.size a
  hwx0_1 : ∀ i : grid0.Coords, EltTy.bits .bf16 = 32 ∨ (Rect.block (s := S3x256x512) S3x256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x512.size a ≤ S2x512.size a
  hwx0_3 : ∀ i : grid0.Coords, EltTy.bits .f32 = 32 ∨ (Rect.block (s := S2x512) S2x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x128.size a ≤ S256x512x128.size a
  hwx0_4 : ∀ i : grid0.Coords, EltTy.bits .f32 = 32 ∨ (Rect.block (s := S256x512x128) S4x512x128.size (cc0_transform_4 i) (hinb0_4 i)).WholeWords (EltTy.packing .f32)

variable [Facts₀]

def scatter_S3x256x512_S2_S3x64x128_012_n_12_0 : ScatterDims S3x256x512 S2 S3x64x128 where
  updateWindowDims := [0, 1, 2]
  insertedWindowDims := []
  scatterDimsToOperandDims := [1, 2]
  indexVectorDim := 0
  wf := scatter_S3x256x512_S2_S3x64x128_012_n_12_0_wf
def scatter_S256x256_S2_S128x128_01_n_01_0 : ScatterDims S256x256 S2 S128x128 where
  updateWindowDims := [0, 1]
  insertedWindowDims := []
  scatterDimsToOperandDims := [0, 1]
  indexVectorDim := 0
  wf := scatter_S256x256_S2_S128x128_01_n_01_0_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_call0_v29) S4x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v16) S3x256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v25) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v28) S2x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v30) S4x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x512x16x4 : Shape := ⟨4, ![256, 512, 16, 4]⟩
abbrev S3x64x128 : Shape := ⟨3, ![3, 64, 128]⟩
abbrev S128x128 : Shape := ⟨2, ![128, 128]⟩
abbrev S2x128 : Shape := ⟨2, ![2, 128]⟩
abbrev S256x512x64 : Shape := ⟨3, ![256, 512, 64]⟩
abbrev S_ : Shape := ⟨0, ![]⟩
abbrev S256x514x64 : Shape := ⟨3, ![256, 514, 64]⟩
abbrev S256x512x128 : Shape := ⟨3, ![256, 512, 128]⟩
abbrev S256x512x16x8 : Shape := ⟨4, ![256, 512, 16, 8]⟩
abbrev S1x514x64 : Shape := ⟨3, ![1, 514, 64]⟩
abbrev S1x512x128 : Shape := ⟨3, ![1, 512, 128]⟩
abbrev S514x64 : Shape := ⟨2, ![514, 64]⟩
abbrev S512x64 : Shape := ⟨2, ![512, 64]⟩
abbrev S1x64x128 : Shape := ⟨3, ![1, 64, 128]⟩
abbrev S64x128 : Shape := ⟨2, ![64, 128]⟩
abbrev S512x128 : Shape := ⟨2, ![512, 128]⟩
abbrev S1x128 : Shape := ⟨2, ![1, 128]⟩

abbrev nBuf : Space → Nat
  | .hbm => 11
  | .vmem => 7
  | .smem => 0
  | _ => 0

abbrev bufTy : (tb : Table) → Fin (tcTables nBuf tb) → BufTy
  | .hbm, ⟨0, _⟩ => ⟨S256x512x16x4, .f32⟩
  | .hbm, ⟨1, _⟩ => ⟨S3x64x128, .bf16⟩
  | .hbm, ⟨2, _⟩ => ⟨S128x128, .bf16⟩
  | .hbm, ⟨3, _⟩ => ⟨S2x128, .f32⟩
  | .hbm, ⟨4, _⟩ => ⟨S256x512x16x4, .bf16⟩
  | .hbm, ⟨5, _⟩ => ⟨S256x512x64, .bf16⟩
  | .hbm, ⟨6, _⟩ => ⟨S_, .i32⟩
  | .hbm, ⟨7, _⟩ => ⟨S_, .bf16⟩
  | .hbm, ⟨8, _⟩ => ⟨S256x514x64, .bf16⟩
  | .hbm, ⟨9, _⟩ => ⟨S256x512x128, .f32⟩
  | .hbm, ⟨10, _⟩ => ⟨S256x512x16x8, .f32⟩
  | .local _ .vmem, ⟨0, _⟩ => ⟨S1x514x64, .bf16⟩
  | .local _ .vmem, ⟨1, _⟩ => ⟨S1x514x64, .bf16⟩
  | .local _ .vmem, ⟨2, _⟩ => ⟨S3x64x128, .bf16⟩
  | .local _ .vmem, ⟨3, _⟩ => ⟨S128x128, .bf16⟩
  | .local _ .vmem, ⟨4, _⟩ => ⟨S2x128, .f32⟩
  | .local _ .vmem, ⟨5, _⟩ => ⟨S1x512x128, .f32⟩
  | .local _ .vmem, ⟨6, _⟩ => ⟨S1x512x128, .f32⟩
  | _, _ => ⟨S256x512x16x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_call0_v0 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x514x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S256x512x16x4_S256x512x64 : S256x512x16x4.ShapeCasts S256x512x64
  pads_S256x512x64_S256x514x64_000_110_000 : S256x512x64.Pads (![0, 1, 0] : Fin 3 → Nat) ![0, 1, 0] ![0, 0, 0] S256x514x64
  h_S_ : 0 < S_.numel
  shapeCasts_S256x512x128_S256x512x16x8 : S256x512x128.ShapeCasts S256x512x16x8
  inb_S1x514x64_S1x514x64_0_0_0 : ∀ a, (![0, 0, 0] : Fin 3 → Nat) a + S1x514x64.size a ≤ S1x514x64.size a
  h_S1x514x64 : 0 < S1x514x64.numel
  shapeCasts_S1x514x64_S514x64 : S1x514x64.ShapeCasts S514x64
  inb_S2x128_S2x128_0_0 : ∀ a, (![0, 0] : Fin 2 → Nat) a + S2x128.size a ≤ S2x128.size a
  h_S2x128 : 0 < S2x128.numel
  slices_S514x64_o0_0_S512x64 : S514x64.Slices ![0, 0] S512x64
  inb_S3x64x128_S1x64x128_0_0_0 : ∀ a, (![0, 0, 0] : Fin 3 → Nat) a + S1x64x128.size a ≤ S3x64x128.size a
  h_S1x64x128 : 0 < S1x64x128.numel
  shapeCasts_S1x64x128_S64x128 : S1x64x128.ShapeCasts S64x128
  slices_S514x64_o1_0_S512x64 : S514x64.Slices ![1, 0] S512x64
  inb_S3x64x128_S1x64x128_1_0_0 : ∀ a, (![1, 0, 0] : Fin 3 → Nat) a + S1x64x128.size a ≤ S3x64x128.size a
  slices_S514x64_o2_0_S512x64 : S514x64.Slices ![2, 0] S512x64
  inb_S3x64x128_S1x64x128_2_0_0 : ∀ a, (![2, 0, 0] : Fin 3 → Nat) a + S1x64x128.size a ≤ S3x64x128.size a
  slices_S2x128_o0_0_S1x128 : S2x128.Slices ![0, 0] S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  slices_S2x128_o1_0_S1x128 : S2x128.Slices ![1, 0] S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x64_S64x128_S512x128_1_0_0_1_n_n_wf : DotDims.WF S512x64 S64x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x514x64.size a ≤ S256x514x64.size a
  hwx0_0 : ∀ i : grid0.Coords, EltTy.bits .bf16 = 32 ∨ (Rect.block (s := S256x514x64) S1x514x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64x128.size a ≤ S3x64x128.size a
  hwx0_1 : ∀ i : grid0.Coords, EltTy.bits .bf16 = 32 ∨ (Rect.block (s := S3x64x128) S3x64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S256x512x128.size a
  hwx0_4 : ∀ i : grid0.Coords, EltTy.bits .f32 = 32 ∨ (Rect.block (s := S256x512x128) S1x512x128.size (cc0_transform_4 i) (hinb0_4 i)).WholeWords (EltTy.packing .f32)

variable [Facts₀]

def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_call0_v2) S1x514x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The function both programs compute, written once, index by index, over the extended reals.

  The input is a batch of 256 images of 512 rows, each row 16 pixels of 4 channels, read as rows of 64 numbers.
  For image n, output row h and output lane c (16 pixels of 8 channels, 128 lanes):
    * a 3×3 convolution with the batch-norm scale folded in, as three banded products, one per vertical tap:
      tap kh reads input row h + kh − 1 (a row outside the image counts as zeros) against the 64×128 band a[kh];
      the three taps are added left to right and the first bias row is added;
    * a leaky rectifier with slope 0.1 (the slope is the single-precision number nearest 0.1, the same word in both programs);
    * a 1×1 convolution as a product with the 128×128 matrix w, plus the second bias row, and a rectifier.
-/
import Idealize.ShloMosaic.Lib.ValueIdx
import Idealize.ShloMosaic.PureOps.Ideal.Laws

noncomputable section

namespace Cert.Spec

open Idealize.ShloMosaic Idealize.ShloMosaic.ValueIdx

abbrev SX : Shape := ⟨4, ![256, 512, 16, 4]⟩
abbrev SA : Shape := ⟨3, ![3, 64, 128]⟩
abbrev SW : Shape := ⟨2, ![128, 128]⟩
abbrev SB : Shape := ⟨2, ![2, 128]⟩
abbrev SO3 : Shape := ⟨3, ![256, 512, 128]⟩

/-- The zero the rectifiers compare with, and the slope of the leaky one. -/
abbrev zeroF : EReal := Scalar.ofBits (F := Ideal) .f32 0x00000000#32
abbrev slope : EReal := Scalar.ofBits (F := Ideal) .f32 0x3DCCCCCD#32

/-- Row `j − 1` of image `n` as 64 numbers, for `j` from 1 to 512; zeros for `j = 0` and `j = 513` (the rows just outside the image). -/
def xq (x : SX.Idx → EReal) (n : Fin 256) (j : Nat) (k : Fin 64) : EReal :=
  if h : 1 ≤ j ∧ j ≤ 512 then x (ix4 n ⟨j - 1, by omega⟩ ⟨k.val / 4, by omega⟩ ⟨k.val % 4, Nat.mod_lt _ (by decide)⟩) else 0

/-- One vertical tap: the padded row `j` against band `kh`. -/
def tap (x : SX.Idx → EReal) (a : SA.Idx → EReal) (n : Fin 256) (j : Nat) (kh : Fin 3) (c : Fin 128) : EReal :=
  ∑ k : Fin 64, xq x n j k * a (ix3 kh k c)

/-- The convolution with its bias, before the leaky rectifier. -/
def pre (x : SX.Idx → EReal) (a : SA.Idx → EReal) (b : SB.Idx → EReal) (n : Fin 256) (h : Fin 512) (c : Fin 128) : EReal :=
  ((tap x a n h.val 0 c + tap x a n (h.val + 1) 1 c) + tap x a n (h.val + 2) 2 c) + b (ix2 0 c)

/-- The leaky rectifier: `v` where `v > 0`, else `slope · v`. -/
def lk (v : EReal) : EReal :=
  Scalar.select (FloatOps.cmpf (F := Ideal) (φ := .f32) .ogt v zeroF) v (slope * v)

/-- The result at image `n`, row `h`, lane `c`. -/
def out (x : SX.Idx → EReal) (a : SA.Idx → EReal) (w : SW.Idx → EReal) (b : SB.Idx → EReal) (n : Fin 256) (h : Fin 512) (c : Fin 128) : EReal :=
  max ((∑ k : Fin 128, lk (pre x a b n h k) * w (ix2 k c)) + b (ix2 1 c)) zeroF

/-- The whole result as an array of shape [256, 512, 128]. -/
def G3 (x : SX.Idx → EReal) (a : SA.Idx → EReal) (w : SW.Idx → EReal) (b : SB.Idx → EReal) : SO3.Idx → EReal :=
  fun i => out x a w b (i 0) (i 1) (i 2)

theorem G3_apply (x : SX.Idx → EReal) (a : SA.Idx → EReal) (w : SW.Idx → EReal) (b : SB.Idx → EReal) (n : Fin 256) (h : Fin 512) (c : Fin 128) :
    G3 x a w b (ix3 n h c) = out x a w b n h c := rfl

end Cert.Spec

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.KerBody.lean ====
import proofs.«106046_g2000301762116789_pallasbulk_831_2_alg».proof.Proof.Gen.KernelIdeal.Frame
import proofs.«106046_g2000301762116789_pallasbulk_831_2_alg».proof.Proof.Spec
import proofs.«106046_g2000301762116789_pallasbulk_831_2_alg».proof.Proof.LibDotRows
import Idealize.ShloMosaic.Lib.Pipeline.Value
import Idealize.ShloMosaic.Lib.ValueIdx
import Idealize.ShloMosaic.Lib.ValueLayout

set_option maxRecDepth 16384

noncomputable section

namespace Cert.KernelIdeal.Body

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-!
  What one grid point of the packed kernel leaves in its output block, as a pure function of its four input blocks.

  The body first fills a strip of 544 rows by 256 lanes: sixteen rows of zeros, then the 512 rows of the four images of the
  point side by side on the lanes (image e on lanes 64e … 64e+63), then sixteen rows of zeros. It then reads the strip at the
  three row offsets 15, 16, 17 (the three vertical taps), multiplies by the three band matrices, adds, applies the leaky
  rectifier, multiplies the two halves of the lanes by the second matrix and stores the four images' results.
-/

variable {F : FTy → Type} [FloatOps F]

theorem hz2 : (![0, 0] : Fin 2 → Nat) = fun _ => 0 := funext fun a => by fin_cases a <;> rfl

/-- The strip after the six stores that fill it (the newest first): the four images' rows, then the two zero bands. -/
def strip (x0 : Vec F S4x512x64 .f32) : S544x256.Idx → Elt F .bf16 :=
  View.canon
    [⟨Rect.unit ![16, 192] ![512, 64] inb_S544x256_S512x64_16_192,
        k0_pay13 (k0_pay12 (View.ld x0 (Rect.unit ![3, 0, 0] ![1, 512, 64] inb_S4x512x64_S1x512x64_3_0_0)))⟩,
      ⟨Rect.unit ![16, 128] ![512, 64] inb_S544x256_S512x64_16_128,
        k0_pay11 (View.ld x0 (Rect.unit ![2, 0, 0] ![1, 512, 64] inb_S4x512x64_S1x512x64_2_0_0))⟩,
      ⟨Rect.unit ![16, 64] ![512, 64] inb_S544x256_S512x64_16_64,
        k0_pay10 (View.ld x0 (Rect.unit ![1, 0, 0] ![1, 512, 64] inb_S4x512x64_S1x512x64_1_0_0))⟩,
      ⟨Rect.unit ![16, 0] ![512, 64] inb_S544x256_S512x64_16_0,
        k0_pay9 (View.ld x0 (Rect.unit ![0, 0, 0] ![1, 512, 64] inb_S4x512x64_S1x512x64_0_0_0))⟩,
      ⟨Rect.unit ![528, 0] ![16, 256] inb_S544x256_S16x256_528_0, k0_pay8⟩,
      ⟨Rect.unit ![0, 0] ![16, 256] inb_S544x256_S16x256_0_0, k0_pay7⟩]

/-- The 512 rows of the strip that start at row 15, 16 and 17: what the three taps read. -/
def rows15 (x0 : Vec F S4x512x64 .f32) : Vec F S512x256 .bf16 :=
  fun j => strip x0 ((Rect.unit (s := S544x256) ![15, 0] ![512, 256] inb_S544x256_S512x256_15_0).idx j)
def rows16 (x0 : Vec F S4x512x64 .f32) : Vec F S512x256 .bf16 :=
  fun j => strip x0 ((Rect.unit (s := S544x256) ![16, 0] ![512, 256] inb_S544x256_S512x256_16_0).idx j)
def rows17 (x0 : Vec F S4x512x64 .f32) : Vec F S512x256 .bf16 :=
  fun j => strip x0 ((Rect.unit (s := S544x256) ![17, 0] ![512, 256] inb_S544x256_S512x256_17_0).idx j)

/-- The hidden layer of the four images, 512 lanes wide: the three taps, the bias, the leaky rectifier. -/
def hid (x0 : Vec F S4x512x64 .f32) (x1 : Vec F S3x256x512 .bf16) (x3 : Vec F S2x512 .f32) : FVec F S512x512 .bf16 :=
  k0_pay14 x3 (rows15 x0) (View.ld x1 (Rect.unit ![0, 0, 0] ![1, 256, 512] inb_S3x256x512_S1x256x512_0_0_0))
    (rows16 x0) (View.ld x1 (Rect.unit ![1, 0, 0] ![1, 256, 512] inb_S3x256x512_S1x256x512_1_0_0))
    (rows17 x0) (View.ld x1 (Rect.unit ![2, 0, 0] ![1, 256, 512] inb_S3x256x512_S1x256x512_2_0_0))

/-- The second product for the first pair of images (lanes 0 … 255 of the hidden layer). -/
def lin01 (x0 : Vec F S4x512x64 .f32) (x1 : Vec F S3x256x512 .bf16) (x2 : Vec F S256x256 .bf16) (x3 : Vec F S2x512 .f32) : FVec F S512x256 .f32 :=
  k0_pay16 x3 (rows15 x0) (View.ld x1 (Rect.unit ![0, 0, 0] ![1, 256, 512] inb_S3x256x512_S1x256x512_0_0_0))
    (rows16 x0) (View.ld x1 (Rect.unit ![1, 0, 0] ![1, 256, 512] inb_S3x256x512_S1x256x512_1_0_0))
    (rows17 x0) (View.ld x1 (Rect.unit ![2, 0, 0] ![1, 256, 512] inb_S3x256x512_S1x256x512_2_0_0)) x2

/-- The output block of the point: the four images' results, stored one after the other. -/
def blockOut (x0 : Vec F S4x512x64 .f32) (x1 : Vec F S3x256x512 .bf16) (x2 : Vec F S256x256 .bf16) (x3 : Vec F S2x512 .f32) : Vec F S4x512x128 .f32 :=
  View.canon
    [⟨Rect.unit ![3, 0, 0] ![1, 512, 128] inb_S4x512x128_S1x512x128_3_0_0, k0_pay6 x3 (hid x0 x1 x3) (k0_pay15 x2)⟩,
      ⟨Rect.unit ![2, 0, 0] ![1, 512, 128] inb_S4x512x128_S1x512x128_2_0_0, k0_pay5 x3 (hid x0 x1 x3) (k0_pay15 x2)⟩,
      ⟨Rect.unit ![1, 0, 0] ![1, 512, 128] inb_S4x512x128_S1x512x128_1_0_0, k0_pay3 (lin01 x0 x1 x2 x3) (k0_pay17 x3)⟩,
      ⟨Rect.unit ![0, 0, 0] ![1, 512, 128] inb_S4x512x128_S1x512x128_0_0_0, k0_pay2 (lin01 x0 x1 x2 x3) (k0_pay17 x3)⟩]

/-- The body's run leaves exactly that: its four covering stores read back, the loads of the strip read through the six
    stores that filled it, the loads of the inputs reading the blocks. -/
theorem out_eq (c : Dev nD) (i : grid0.Coords) (arg1 : Memref sig .tc .vmem S4x512x64 .f32) (harg1 : arg1.IsWhole) (arg2 : Memref sig .tc .vmem S3x256x512 .bf16) (harg2 : arg2.IsWhole) (arg3 : Memref sig .tc .vmem S256x256 .bf16) (harg3 : arg3.IsWhole) (arg4 : Memref sig .tc .vmem S2x512 .f32) (harg4 : arg4.IsWhole) (arg5 : Memref sig .tc .vmem S4x512x128 .f32) (harg5 : arg5.IsWhole) (arg6 : Memref sig .tc .vmem S544x256 .bf16) (harg6 : arg6.IsWhole)
    (x0 : Vec F S4x512x64 .f32) (x1 : Vec F S3x256x512 .bf16) (x2 : Vec F S256x256 .bf16) (x3 : Vec F S2x512 .f32) :
    out0_A_4 c i arg1 harg1 arg2 harg2 arg3 harg3 arg4 harg4 arg5 harg5 arg6 harg6 x0 x1 x2 x3 = blockOut x0 x1 x2 x3 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  simp only [View.readAt_eq_ld, harg1.read_unread, harg2.read_unread, harg3.read_unread, harg4.read_unread,
    View.ld_unit_zero (S := S2x512) hz2, View.ld_unit_zero (S := S256x256) hz2, View.readCov_eq_canon']
  unfold blockOut lin01 hid rows15 rows16 rows17 strip
  rfl

end Cert.KernelIdeal.Body

end
-- ==== Proof.KerStrip.lean ====
import proofs.«106046_g2000301762116789_pallasbulk_831_2_alg».proof.Proof.KerBody
import Idealize.ShloMosaic.Lib.Pipeline.Value
import Idealize.ShloMosaic.Lib.ValueIdx
import Idealize.ShloMosaic.Lib.ValueLayout

set_option maxRecDepth 16384

noncomputable section

namespace Cert.KernelIdeal.Strip

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.KernelIdeal.Body

/-!
  The strip read entry by entry: row R, lane L of the strip holds, for 16 ≤ R < 528, entry (R − 16, L mod 64) of image
  L / 64 of the point (the change of float format is the identity over the extended reals), and zero on the first and the
  last sixteen rows.
-/

/-- The zero pattern of the narrow format is the number zero. -/
theorem zero_bf16 : (Scalar.ofBits (F := Ideal) .bf16 0x0000#16 : EReal) = 0 := by
  simp [Scalar.ofBits, Ideal.ofBits, Ideal.ieee]

/-- One image's rows as stored in the strip: entry (p, q) is the image's entry (p, q). -/
theorem img_apply (v : Vec Ideal S1x512x64 .f32) (h : S1x512x64.ShapeCasts S512x64) (p : Fin 512) (q : Fin 64) :
    shapeCast S512x64 v h (ix2 p q) = v (ix3 0 p q) :=
  shapeCast_apply _ _ _ _ (by
    rw [Shape.rowMajor_val_three, Shape.rowMajor_val_two]
    show (0 * 512 + p.val) * 64 + q.val = p.val * 64 + q.val
    omega)

theorem pay9_apply (v : Vec Ideal S1x512x64 .f32) (p : Fin 512) (q : Fin 64) : k0_pay9 v (ix2 p q) = v (ix3 0 p q) := by
  unfold k0_pay9; try dsimp only
  rw [shapeCast_self]; exact img_apply v _ p q
theorem pay10_apply (v : Vec Ideal S1x512x64 .f32) (p : Fin 512) (q : Fin 64) : k0_pay10 v (ix2 p q) = v (ix3 0 p q) := by
  unfold k0_pay10; try dsimp only
  rw [shapeCast_self]; exact img_apply v _ p q
theorem pay11_apply (v : Vec Ideal S1x512x64 .f32) (p : Fin 512) (q : Fin 64) : k0_pay11 v (ix2 p q) = v (ix3 0 p q) := by
  unfold k0_pay11; try dsimp only
  rw [shapeCast_self]; exact img_apply v _ p q
theorem pay13_apply (v : Vec Ideal S1x512x64 .f32) (p : Fin 512) (q : Fin 64) : k0_pay13 (k0_pay12 v) (ix2 p q) = v (ix3 0 p q) := by
  unfold k0_pay13 k0_pay12; try dsimp only
  rw [shapeCast_self]; exact img_apply v _ p q
theorem pay7_apply (j : S16x256.Idx) : (k0_pay7 (F := Ideal) j : EReal) = 0 := by
  unfold k0_pay7; try dsimp only
  rw [shapeCast_self]; exact zero_bf16
theorem pay8_apply (j : S16x256.Idx) : (k0_pay8 (F := Ideal) j : EReal) = 0 := by
  unfold k0_pay8; try dsimp only
  rw [shapeCast_self]; exact zero_bf16

/-- The strip as one function of its index. -/
def stripFn (x0 : Vec Ideal S4x512x64 .f32) : S544x256.Idx → Elt Ideal .bf16 := fun y =>
  if h : 16 ≤ (y 0).val ∧ (y 0).val < 528 then
    x0 (ix3 ⟨(y 1).val / 64, by have : (y 1).val < 256 := (y 1).isLt; omega⟩ ⟨(y 0).val - 16, by omega⟩
      ⟨(y 1).val % 64, Nat.mod_lt _ (by decide)⟩)
  else 0

/-- Image e's store agrees with the function: the piece at rows 16…, lanes 64e… holds image e. -/
theorem piece_img (x0 : Vec Ideal S4x512x64 .f32) (e o : Nat) (he : e < 4) (ho : o = 64 * e) (inbS : ∀ a, (![16, o] : Fin 2 → Nat) a + (![512, 64] : Fin 2 → Nat) a ≤ S544x256.size a)
    (inbX : ∀ a, (![e, 0, 0] : Fin 3 → Nat) a + (![1, 512, 64] : Fin 3 → Nat) a ≤ S4x512x64.size a)
    (w : S512x64.Idx → EReal) (hw : ∀ p q, w (ix2 p q) = View.ld x0 (Rect.unit (s := S4x512x64) ![e, 0, 0] ![1, 512, 64] inbX) (ix3 0 p q))
    (x : S512x64.Idx) : w x = stripFn x0 ((Rect.unit (s := S544x256) ![16, o] ![512, 64] inbS).emb x) := by
  obtain ⟨p, q, rfl⟩ : ∃ (p : Fin 512) (q : Fin 64), x = ix2 p q := ⟨x 0, x 1, eq_ix2 x⟩
  rw [hw]
  unfold stripFn
  have h0 : (((Rect.unit (s := S544x256) ![16, o] ![512, 64] inbS).emb (ix2 p q)) 0).val = 16 + 1 * p.val := rfl
  have h1 : (((Rect.unit (s := S544x256) ![16, o] ![512, 64] inbS).emb (ix2 p q)) 1).val = o + 1 * q.val := rfl
  rw [dif_pos ⟨by rw [h0]; omega, by rw [h0]; omega⟩]
  show x0 _ = x0 _
  refine congrArg x0 (funext fun a => Fin.ext ?_)
  match a with
  | ⟨0, _⟩ => show e + 1 * 0 = (((Rect.unit (s := S544x256) ![16, o] ![512, 64] inbS).emb (ix2 p q)) 1).val / 64; rw [h1]; omega
  | ⟨1, _⟩ => show 0 + 1 * p.val = (((Rect.unit (s := S544x256) ![16, o] ![512, 64] inbS).emb (ix2 p q)) 0).val - 16; rw [h0]; omega
  | ⟨2, _⟩ => show 0 + 1 * q.val = (((Rect.unit (s := S544x256) ![16, o] ![512, 64] inbS).emb (ix2 p q)) 1).val % 64; rw [h1]; omega

/-- A band of sixteen zero rows agrees with the function when the band lies outside rows 16 … 527. -/
theorem piece_zero (x0 : Vec Ideal S4x512x64 .f32) (o : Nat) (ho : o + 16 ≤ 16 ∨ 528 ≤ o) (inbS : ∀ a, (![o, 0] : Fin 2 → Nat) a + (![16, 256] : Fin 2 → Nat) a ≤ S544x256.size a)
    (w : S16x256.Idx → EReal) (hw : ∀ j, w j = 0) (x : S16x256.Idx) :
    w x = stripFn x0 ((Rect.unit (s := S544x256) ![o, 0] ![16, 256] inbS).emb x) := by
  rw [hw]
  unfold stripFn
  have h0 : (((Rect.unit (s := S544x256) ![o, 0] ![16, 256] inbS).emb x) 0).val = o + 1 * (x 0).val := rfl
  have hx : (x 0).val < 16 := (x 0).isLt
  rw [dif_neg (by rw [h0]; omega)]

/-- An index inside a store's rectangle on both axes is covered by that store. -/
theorem cover_of (L : List (View.Piece (Elt Ideal) S544x256 .bf16)) (off size : Fin 2 → Nat) (inb : ∀ a, off a + size a ≤ S544x256.size a)
    (w : (Rect.unit (s := S544x256) off size inb).shape.Idx → Elt Ideal .bf16)
    (hmem : List.Mem (⟨Rect.unit (s := S544x256) off size inb, w⟩ : View.Piece (Elt Ideal) S544x256 .bf16) L) (y : S544x256.Idx)
    (h0 : off 0 ≤ (y 0).val ∧ (y 0).val < off 0 + size 0) (h1 : off 1 ≤ (y 1).val ∧ (y 1).val < off 1 + size 1) :
    ∃ p ∈ L, y ∈ p.1.set :=
  ⟨(⟨Rect.unit (s := S544x256) off size inb, w⟩ : View.Piece (Elt Ideal) S544x256 .bf16), hmem,
    (Rect.mem_set_unit (s := S544x256) (off := off) (size := size) (inb := inb) (i := y)).mpr (fun a => by
    match a with
    | ⟨0, _⟩ => exact h0
    | ⟨1, _⟩ => exact h1)⟩

theorem strip_eq (x0 : Vec Ideal S4x512x64 .f32) : strip (F := Ideal) x0 = stripFn x0 := by
  funext y
  unfold strip
  refine View.canon_apply_of_pieces (Val := Elt Ideal) (S := S544x256) (e := .bf16) (stripFn x0) _ ?_ y ?_
  · intro p hp
    simp only [List.mem_cons, List.mem_nil_iff, or_false] at hp
    rcases hp with rfl | rfl | rfl | rfl | rfl | rfl
    · exact fun x => piece_img x0 3 192 (by decide) (by decide) inb_S544x256_S512x64_16_192 inb_S4x512x64_S1x512x64_3_0_0
        (k0_pay13 (k0_pay12 (View.ld x0 (Rect.unit (s := S4x512x64) ![3, 0, 0] ![1, 512, 64] inb_S4x512x64_S1x512x64_3_0_0))))
        (fun p q => pay13_apply _ p q) x
    · exact fun x => piece_img x0 2 128 (by decide) (by decide) inb_S544x256_S512x64_16_128 inb_S4x512x64_S1x512x64_2_0_0
        (k0_pay11 (View.ld x0 (Rect.unit (s := S4x512x64) ![2, 0, 0] ![1, 512, 64] inb_S4x512x64_S1x512x64_2_0_0)))
        (fun p q => pay11_apply _ p q) x
    · exact fun x => piece_img x0 1 64 (by decide) (by decide) inb_S544x256_S512x64_16_64 inb_S4x512x64_S1x512x64_1_0_0
        (k0_pay10 (View.ld x0 (Rect.unit (s := S4x512x64) ![1, 0, 0] ![1, 512, 64] inb_S4x512x64_S1x512x64_1_0_0)))
        (fun p q => pay10_apply _ p q) x
    · exact fun x => piece_img x0 0 0 (by decide) (by decide) inb_S544x256_S512x64_16_0 inb_S4x512x64_S1x512x64_0_0_0
        (k0_pay9 (View.ld x0 (Rect.unit (s := S4x512x64) ![0, 0, 0] ![1, 512, 64] inb_S4x512x64_S1x512x64_0_0_0)))
        (fun p q => pay9_apply _ p q) x
    · exact fun x => piece_zero x0 528 (Or.inr (le_refl _)) inb_S544x256_S16x256_528_0 (k0_pay8 (F := Ideal)) pay8_apply x
    · exact fun x => piece_zero x0 0 (Or.inl (le_refl _)) inb_S544x256_S16x256_0_0 (k0_pay7 (F := Ideal)) pay7_apply x
  · have hy0 : (y 0).val < 544 := (y 0).isLt
    have hy1 : (y 1).val < 256 := (y 1).isLt
    by_cases hlo : (y 0).val < 16
    · exact cover_of _ ![0, 0] ![16, 256] inb_S544x256_S16x256_0_0 (k0_pay7 (F := Ideal))
        (List.Mem.tail _ (List.Mem.tail _ (List.Mem.tail _ (List.Mem.tail _ (List.Mem.tail _ (List.Mem.head _)))))) y
        ⟨Nat.zero_le _, by show (y 0).val < 0 + 16; omega⟩ ⟨Nat.zero_le _, by show (y 1).val < 0 + 256; omega⟩
    by_cases hhi : 528 ≤ (y 0).val
    · exact cover_of _ ![528, 0] ![16, 256] inb_S544x256_S16x256_528_0 (k0_pay8 (F := Ideal))
        (List.Mem.tail _ (List.Mem.tail _ (List.Mem.tail _ (List.Mem.tail _ (List.Mem.head _))))) y
        ⟨hhi, by show (y 0).val < 528 + 16; omega⟩ ⟨Nat.zero_le _, by show (y 1).val < 0 + 256; omega⟩
    have hq : (y 1).val / 64 = 0 ∨ (y 1).val / 64 = 1 ∨ (y 1).val / 64 = 2 ∨ (y 1).val / 64 = 3 := by omega
    rcases hq with hq | hq | hq | hq
    · exact cover_of _ ![16, 0] ![512, 64] inb_S544x256_S512x64_16_0 _
        (List.Mem.tail _ (List.Mem.tail _ (List.Mem.tail _ (List.Mem.head _)))) y
        ⟨by show 16 ≤ (y 0).val; omega, by show (y 0).val < 16 + 512; omega⟩ ⟨Nat.zero_le _, by show (y 1).val < 0 + 64; omega⟩
    · exact cover_of _ ![16, 64] ![512, 64] inb_S544x256_S512x64_16_64 _
        (List.Mem.tail _ (List.Mem.tail _ (List.Mem.head _))) y
        ⟨by show 16 ≤ (y 0).val; omega, by show (y 0).val < 16 + 512; omega⟩ ⟨by show 64 ≤ (y 1).val; omega, by show (y 1).val < 64 + 64; omega⟩
    · exact cover_of _ ![16, 128] ![512, 64] inb_S544x256_S512x64_16_128 _
        (List.Mem.tail _ (List.Mem.head _)) y
        ⟨by show 16 ≤ (y 0).val; omega, by show (y 0).val < 16 + 512; omega⟩ ⟨by show 128 ≤ (y 1).val; omega, by show (y 1).val < 128 + 64; omega⟩
    · exact cover_of _ ![16, 192] ![512, 64] inb_S544x256_S512x64_16_192 _
        (List.Mem.head _) y
        ⟨by show 16 ≤ (y 0).val; omega, by show (y 0).val < 16 + 512; omega⟩ ⟨by show 192 ≤ (y 1).val; omega, by show (y 1).val < 192 + 64; omega⟩

/-- The rows a tap reads: row h of the rows starting at row o of the strip is row o + h of the strip. -/
theorem rows_apply (x0 : Vec Ideal S4x512x64 .f32) (o : Nat) (inb : ∀ a, (![o, 0] : Fin 2 → Nat) a + (![512, 256] : Fin 2 → Nat) a ≤ S544x256.size a)
    (h : Fin 512) (K : Fin 256) (ho : o + h.val < 544) :
    strip (F := Ideal) x0 ((Rect.unit (s := S544x256) ![o, 0] ![512, 256] inb).idx (ix2 h K)) = stripFn x0 (ix2 ⟨o + h.val, ho⟩ K) := by
  rw [strip_eq]
  refine congrArg (stripFn x0) (funext fun a => Fin.ext ?_)
  match a with
  | ⟨0, _⟩ => show o + 1 * h.val = o + h.val; omega
  | ⟨1, _⟩ => show 0 + 1 * K.val = K.val; omega

end Cert.KernelIdeal.Strip

end
-- ==== Proof.KerPayload.lean ====
import proofs.«106046_g2000301762116789_pallasbulk_831_2_alg».proof.Proof.KerBody
import proofs.«106046_g2000301762116789_pallasbulk_831_2_alg».proof.Proof.LibDotRows
import proofs.«106046_g2000301762116789_pallasbulk_831_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Payload

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.KernelIdeal.Body Cert.Lib.DotRows

/-!
  The body's arithmetic read entry by entry over the extended reals: each product with a matrix is a sum over the
  contracted position, the slices and reshapes move indices, the change of float format is the identity.
-/

/-- Band kh of the stacked matrices, as the body reshapes it: entry (K, C) is entry (kh, K, C) of the stack. -/
theorem band_apply (x1 : Vec Ideal S3x256x512 .bf16) (kh : Nat) (hkh : kh < 3)
    (inb : ∀ a, (![kh, 0, 0] : Fin 3 → Nat) a + (![1, 256, 512] : Fin 3 → Nat) a ≤ S3x256x512.size a)
    (sc : S1x256x512.ShapeCasts S256x512) (K : Fin 256) (C : Fin 512) :
    shapeCast S256x512 (View.ld (Val := Elt Ideal) x1 (Rect.unit (s := S3x256x512) ![kh, 0, 0] ![1, 256, 512] inb)) sc (ix2 K C) = x1 (ix3 ⟨kh, hkh⟩ K C) := by
  refine (shapeCast_apply _ sc (ix2 K C) (ix3 0 K C) (by
    rw [Shape.rowMajor_val_three, Shape.rowMajor_val_two]
    show (0 * 256 + K.val) * 512 + C.val = K.val * 512 + C.val
    omega)).trans ?_
  show x1 _ = x1 _
  refine congrArg x1 (funext fun a => Fin.ext ?_)
  match a with
  | ⟨0, _⟩ => show kh + 1 * 0 = kh; omega
  | ⟨1, _⟩ => show 0 + 1 * K.val = K.val; omega
  | ⟨2, _⟩ => show 0 + 1 * C.val = C.val; omega

/-- One tap: the rows R times band kh, entry (h, C), as a sum over the 256 lanes of the strip. -/
theorem tap_apply (x1 : Vec Ideal S3x256x512 .bf16) (R : Vec Ideal S512x256 .bf16) (kh : Nat) (hkh : kh < 3)
    (inb : ∀ a, (![kh, 0, 0] : Fin 3 → Nat) a + (![1, 256, 512] : Fin 3 → Nat) a ≤ S3x256x512.size a)
    (sc : S1x256x512.ShapeCasts S256x512) (h : Fin 512) (C : Fin 512) :
    matmul (F := Ideal) (φ₁ := .bf16) (φ₂ := .bf16) dot_S512x256_S256x512_S512x512_1_0_0_1_n_n none R
        (shapeCast S256x512 (View.ld (Val := Elt Ideal) x1 (Rect.unit (s := S3x256x512) ![kh, 0, 0] ![1, 256, 512] inb)) sc)
        (constant S512x512 .f32 0x00000000#32) (ix2 h C)
      = ∑ K : Fin 256, R (ix2 h K) * x1 (ix3 ⟨kh, hkh⟩ K C) := by
  show matmul (F := Ideal) (φ₁ := .bf16) (φ₂ := .bf16) (DotDims.plain 512 256 512) none R _ (constant ⟨2, ![512, 512]⟩ .f32 0x00000000#32) (ix2 h C) = _
  rw [matmul_plain_apply]
  exact Finset.sum_congr rfl fun K _ => by rw [band_apply x1 kh hkh inb sc K C]

/-- A bias row broadcast down the rows: entry (h, q) is the bias at (r, o + q). -/
theorem bias_apply {n : Nat} (x3 : Vec Ideal S2x512 .f32) (r o : Nat) (hr : r < 2) (sl : S2x512.Slices ![r, o] ⟨2, ![1, n]⟩)
    (bc : (⟨2, ![1, n]⟩ : Shape).Broadcasts ⟨2, ![512, n]⟩) (h : Fin 512) (q : Fin n) (hq : o + q.val < 512) :
    broadcastTo (⟨2, ![512, n]⟩ : Shape) (extractStridedSlice (⟨2, ![1, n]⟩ : Shape) ![r, o] x3 sl) bc (ix2 h q) = x3 (ix2 ⟨r, hr⟩ ⟨o + q.val, hq⟩) := by
  have hn : q.val < n := q.isLt
  refine (broadcastTo_apply _ bc (ix2 h q) (ix2 0 q) (fun a => ?_)).trans ?_
  · match a with
    | ⟨0, _⟩ => rfl
    | ⟨1, _⟩ =>
      show q.val = if n = 1 then 0 else q.val
      split
      · omega
      · rfl
  · refine extractStridedSlice_apply _ _ sl (ix2 0 q) (ix2 ⟨r, hr⟩ ⟨o + q.val, hq⟩) (fun a => ?_)
    match a with
    | ⟨0, _⟩ => show r = r + 0; omega
    | ⟨1, _⟩ => rfl

/-- The leaky rectifier of the specification, met on a value. -/
theorem lk_of (v E : EReal) (hv : v = E) :
    Scalar.select (FloatOps.cmpf (F := Ideal) (φ := .f32) .ogt v (Scalar.ofBits (F := Ideal) .f32 0x00000000#32)) v
      ((Scalar.ofBits (F := Ideal) .f32 0x3DCCCCCD#32 : EReal) * v) = Cert.Spec.lk E := by
  subst hv; rfl

/-- The hidden layer at row h, lane C: the three taps added left to right, the first bias row, the leaky rectifier. -/
theorem pay14_apply (x3 : Vec Ideal S2x512 .f32) (R15 R16 R17 : Vec Ideal S512x256 .bf16) (x1 : Vec Ideal S3x256x512 .bf16)
    (h : Fin 512) (C : Fin 512) :
    (k0_pay14 x3 R15 (View.ld x1 (Rect.unit (s := S3x256x512) ![0, 0, 0] ![1, 256, 512] inb_S3x256x512_S1x256x512_0_0_0))
        R16 (View.ld x1 (Rect.unit (s := S3x256x512) ![1, 0, 0] ![1, 256, 512] inb_S3x256x512_S1x256x512_1_0_0))
        R17 (View.ld x1 (Rect.unit (s := S3x256x512) ![2, 0, 0] ![1, 256, 512] inb_S3x256x512_S1x256x512_2_0_0)) (ix2 h C) : EReal)
      = Cert.Spec.lk ((((∑ K : Fin 256, R15 (ix2 h K) * x1 (ix3 0 K C)) + (∑ K : Fin 256, R16 (ix2 h K) * x1 (ix3 1 K C)))
          + (∑ K : Fin 256, R17 (ix2 h K) * x1 (ix3 2 K C))) + x3 (ix2 0 C)) := by
  unfold k0_pay14
  refine lk_of _ _ ?_
  show _ + _ + _ + _ = _
  rw [tap_apply x1 R15 0 (by decide), tap_apply x1 R16 1 (by decide), tap_apply x1 R17 2 (by decide),
    bias_apply x3 0 0 (by decide) slices_S2x512_o0_0_S1x512 broadcasts_S1x512_S512x512 h C (by have := C.isLt; omega)]
  have e : (⟨0 + C.val, by have := C.isLt; omega⟩ : Fin 512) = C := Fin.ext (Nat.zero_add _)
  rw [e]
  rfl

/-- The second matrix as loaded (a reshape to the same shape). -/
theorem pay15_eq (x2 : Vec Ideal S256x256 .bf16) : k0_pay15 x2 = x2 := by
  unfold k0_pay15; exact shapeCast_self _ _

/-- A block of 256 lanes of the hidden layer, starting at lane o. -/
theorem hslice_apply (H : FVec Ideal S512x512 .bf16) (o : Nat) (sl : S512x512.Slices ![0, o] S512x256) (h : Fin 512) (K : Fin 256)
    (hK : o + K.val < 512) : extractStridedSlice S512x256 ![0, o] H sl (ix2 h K) = H (ix2 h ⟨o + K.val, hK⟩) :=
  extractStridedSlice_apply _ _ sl (ix2 h K) (ix2 h ⟨o + K.val, hK⟩) (fun a => by
    match a with
    | ⟨0, _⟩ => show h.val = 0 + h.val; omega
    | ⟨1, _⟩ => rfl)

/-- The second product: lanes o … o + 255 of the hidden layer times the 256×256 matrix, entry (h, q). -/
theorem lin_apply (H : FVec Ideal S512x512 .bf16) (x2 : FVec Ideal S256x256 .bf16) (o : Nat) (sl : S512x512.Slices ![0, o] S512x256)
    (ho : o + 256 ≤ 512) (h : Fin 512) (q : Fin 256) :
    matmul (F := Ideal) (φ₁ := .bf16) (φ₂ := .bf16) dot_S512x256_S256x256_S512x256_1_0_0_1_n_n none (extractStridedSlice S512x256 ![0, o] H sl) x2
        (constant S512x256 .f32 0x00000000#32) (ix2 h q)
      = ∑ K : Fin 256, H (ix2 h ⟨o + K.val, by have := K.isLt; omega⟩) * x2 (ix2 K q) := by
  show matmul (F := Ideal) (φ₁ := .bf16) (φ₂ := .bf16) (DotDims.plain 512 256 256) none _ x2 (constant ⟨2, ![512, 256]⟩ .f32 0x00000000#32) (ix2 h q) = _
  rw [matmul_plain_apply]
  exact Finset.sum_congr rfl fun K _ => by rw [hslice_apply H o sl h K (by have := K.isLt; omega)]

/-- The rectifier of the specification. -/
theorem relu_of (v E : EReal) (hv : v = E) : max v (Scalar.ofBits (F := Ideal) .f32 0x00000000#32 : EReal) = max E Cert.Spec.zeroF := by
  subst hv; rfl

/-- The stored block of one image: lanes o … o + 127 of a 256-lane result P, as a [1, 512, 128] block, entry (0, h, c). -/
theorem store_apply (P : FVec Ideal S512x256 .f32) (o : Nat) (sl : S512x256.Slices ![0, o] S512x128) (sc : S512x128.ShapeCasts S1x512x128)
    (h : Fin 512) (c : Fin 128) (hc : o + c.val < 256) :
    shapeCast S1x512x128 (extractStridedSlice S512x128 ![0, o] P sl) sc (ix3 0 h c) = P (ix2 h ⟨o + c.val, hc⟩) := by
  refine (shapeCast_apply _ sc (ix3 0 h c) (ix2 h c) (by
    rw [Shape.rowMajor_val_three, Shape.rowMajor_val_two]
    show h.val * 128 + c.val = (0 * 512 + h.val) * 128 + c.val
    omega)).trans ?_
  exact extractStridedSlice_apply _ _ sl (ix2 h c) (ix2 h ⟨o + c.val, hc⟩) (fun a => by
    match a with
    | ⟨0, _⟩ => show h.val = 0 + h.val; omega
    | ⟨1, _⟩ => rfl)

variable (x0 : Vec Ideal S4x512x64 .f32) (x1 : Vec Ideal S3x256x512 .bf16) (x2 : Vec Ideal S256x256 .bf16) (x3 : Vec Ideal S2x512 .f32)

/-- The result for one image at row h, lane c, over the hidden layer: the 256 lanes of the hidden layer from lane oH on, times
    the 256×256 matrix at columns oW + c, plus the second bias row at lane oB + c, rectified. -/
def outAt (h : Fin 512) (oH oW oB : Nat) (c : Fin 128) (hH : oH + 256 ≤ 512) (hW : oW + 128 ≤ 256) (hB : oB + 128 ≤ 512) : EReal :=
  max ((∑ K : Fin 256, (hid x0 x1 x3 (ix2 h ⟨oH + K.val, by have := K.isLt; omega⟩) : EReal)
          * x2 (ix2 K ⟨oW + c.val, by have := c.isLt; omega⟩))
        + x3 (ix2 1 ⟨oB + c.val, by have := c.isLt; omega⟩))
    Cert.Spec.zeroF

theorem outAt_congr (h : Fin 512) (c : Fin 128) {oH oW oB oH' oW' oB' : Nat} (hH : oH + 256 ≤ 512) (hW : oW + 128 ≤ 256) (hB : oB + 128 ≤ 512)
    (hH' : oH' + 256 ≤ 512) (hW' : oW' + 128 ≤ 256) (hB' : oB' + 128 ≤ 512) (e1 : oH = oH') (e2 : oW = oW') (e3 : oB = oB') :
    outAt x0 x1 x2 x3 h oH oW oB c hH hW hB = outAt x0 x1 x2 x3 h oH' oW' oB' c hH' hW' hB' := by
  subst e1; subst e2; subst e3; rfl

/-- The first pair's pre-activation (images 0 and 1), entry (h, q). -/
theorem pre01_apply (h : Fin 512) (q : Fin 256) :
    (addf (lin01 x0 x1 x2 x3) (k0_pay17 x3) (ix2 h q) : EReal)
      = (∑ K : Fin 256, (hid x0 x1 x3 (ix2 h ⟨0 + K.val, by have := K.isLt; omega⟩) : EReal) * x2 (ix2 K q))
        + x3 (ix2 1 ⟨0 + q.val, by have := q.isLt; omega⟩) := by
  show lin01 x0 x1 x2 x3 (ix2 h q) + k0_pay17 x3 (ix2 h q) = _
  refine congrArg₂ (fun a b : EReal => a + b) ?_ ?_
  · unfold lin01 k0_pay16
    rw [pay15_eq]
    exact lin_apply _ x2 0 slices_S512x512_o0_0_S512x256 (by decide) h q
  · unfold k0_pay17
    exact bias_apply x3 1 0 (by decide) slices_S2x512_o1_0_S1x256 broadcasts_S1x256_S512x256 h q (by have := q.isLt; omega)

/-- The second pair's pre-activation (images 2 and 3), entry (h, q). -/
theorem pre23_apply (h : Fin 512) (q : Fin 256) :
    (k0_pay4 x3 (hid x0 x1 x3) (k0_pay15 x2) (ix2 h q) : EReal)
      = max ((∑ K : Fin 256, (hid x0 x1 x3 (ix2 h ⟨256 + K.val, by have := K.isLt; omega⟩) : EReal) * x2 (ix2 K q))
        + x3 (ix2 1 ⟨256 + q.val, by have := q.isLt; omega⟩)) Cert.Spec.zeroF := by
  unfold k0_pay4
  refine relu_of _ _ ?_
  show _ + _ = _
  refine congrArg₂ (fun a b : EReal => a + b) ?_ ?_
  · rw [pay15_eq]
    exact lin_apply _ x2 256 slices_S512x512_o0_256_S512x256 (by decide) h q
  · exact bias_apply x3 1 256 (by decide) slices_S2x512_o1_256_S1x256 broadcasts_S1x256_S512x256 h q (by have := q.isLt; omega)

theorem pay1_apply (h : Fin 512) (q : Fin 256) :
    (k0_pay1 (lin01 x0 x1 x2 x3) (k0_pay17 x3) (ix2 h q) : EReal)
      = max ((∑ K : Fin 256, (hid x0 x1 x3 (ix2 h ⟨0 + K.val, by have := K.isLt; omega⟩) : EReal) * x2 (ix2 K q))
        + x3 (ix2 1 ⟨0 + q.val, by have := q.isLt; omega⟩)) Cert.Spec.zeroF := by
  unfold k0_pay1
  exact relu_of _ _ (pre01_apply x0 x1 x2 x3 h q)

/-- An index whose first coordinate is e is covered by image e's store. -/
theorem cover_out (L : List (View.Piece (Elt Ideal) S4x512x128 .f32)) (e : Nat) (inb : ∀ a, (![e, 0, 0] : Fin 3 → Nat) a + (![1, 512, 128] : Fin 3 → Nat) a ≤ S4x512x128.size a)
    (w : (Rect.unit (s := S4x512x128) ![e, 0, 0] ![1, 512, 128] inb).shape.Idx → Elt Ideal .f32)
    (hmem : List.Mem (⟨Rect.unit (s := S4x512x128) ![e, 0, 0] ![1, 512, 128] inb, w⟩ : View.Piece (Elt Ideal) S4x512x128 .f32) L) (y : S4x512x128.Idx)
    (h0 : (y 0).val = e) : ∃ p ∈ L, y ∈ p.1.set :=
  ⟨(⟨Rect.unit (s := S4x512x128) ![e, 0, 0] ![1, 512, 128] inb, w⟩ : View.Piece (Elt Ideal) S4x512x128 .f32), hmem,
    (Rect.mem_set_unit (s := S4x512x128) (off := ![e, 0, 0]) (size := ![1, 512, 128]) (inb := inb) (i := y)).mpr (fun a => by
      have hy1 : (y 1).val < 512 := (y 1).isLt
      have hy2 : (y 2).val < 128 := (y 2).isLt
      match a with
      | ⟨0, _⟩ => exact ⟨by show e ≤ (y 0).val; omega, by show (y 0).val < e + 1; omega⟩
      | ⟨1, _⟩ => exact ⟨Nat.zero_le _, by show (y 1).val < 0 + 512; omega⟩
      | ⟨2, _⟩ => exact ⟨Nat.zero_le _, by show (y 2).val < 0 + 128; omega⟩)⟩

/-- Images 0 and 1: the stored block, entry (0, h, c), with o = 0 for image 0 and o = 128 for image 1. -/
theorem img01_apply (o : Nat) (ho : o + 128 ≤ 256) (sl : S512x256.Slices ![0, o] S512x128) (h : Fin 512) (c : Fin 128) :
    shapeCast S1x512x128 (extractStridedSlice S512x128 ![0, o] (k0_pay1 (lin01 x0 x1 x2 x3) (k0_pay17 x3)) sl) shapeCasts_S512x128_S1x512x128 (ix3 0 h c)
      = outAt x0 x1 x2 x3 h 0 o o c (by decide) ho (by omega) := by
  rw [store_apply _ o sl _ h c (by have := c.isLt; omega), pay1_apply]
  unfold outAt
  have e : (⟨0 + (⟨o + c.val, by have := c.isLt; omega⟩ : Fin 256).val, by have := c.isLt; show 0 + (o + c.val) < 512; omega⟩ : Fin 512)
      = ⟨o + c.val, by have := c.isLt; omega⟩ := Fin.ext (Nat.zero_add _)
  rw [e]

/-- Images 2 and 3: the stored block, entry (0, h, c), with o = 0 for image 2 and o = 128 for image 3. -/
theorem img23_apply (o : Nat) (ho : o + 128 ≤ 256) (sl : S512x256.Slices ![0, o] S512x128) (h : Fin 512) (c : Fin 128) :
    shapeCast S1x512x128 (extractStridedSlice S512x128 ![0, o] (k0_pay4 x3 (hid x0 x1 x3) (k0_pay15 x2)) sl) shapeCasts_S512x128_S1x512x128 (ix3 0 h c)
      = outAt x0 x1 x2 x3 h 256 o (256 + o) c (by decide) ho (by omega) := by
  rw [store_apply _ o sl _ h c (by have := c.isLt; omega), pre23_apply]
  unfold outAt
  have e : (⟨256 + (⟨o + c.val, by have := c.isLt; omega⟩ : Fin 256).val, by have := c.isLt; show 256 + (o + c.val) < 512; omega⟩ : Fin 512)
      = ⟨256 + o + c.val, by have := c.isLt; omega⟩ := Fin.ext (by show 256 + (o + c.val) = 256 + o + c.val; omega)
  rw [e]

/-- The output block as one function of its index (e, h, c). -/
def outFn (y : S4x512x128.Idx) : Elt Ideal .f32 :=
  outAt x0 x1 x2 x3 (y 1) (256 * ((y 0).val / 2)) (128 * ((y 0).val % 2)) (256 * ((y 0).val / 2) + 128 * ((y 0).val % 2)) (y 2)
    (by have : (y 0).val < 4 := (y 0).isLt; omega) (by omega) (by have : (y 0).val < 4 := (y 0).isLt; omega)

/-- One image's store agrees with the function. -/
theorem piece_out (e : Nat) (he : e < 4) (inb : ∀ a, (![e, 0, 0] : Fin 3 → Nat) a + (![1, 512, 128] : Fin 3 → Nat) a ≤ S4x512x128.size a)
    (w : S1x512x128.Idx → Elt Ideal .f32) (oH oW oB : Nat) (hH : oH + 256 ≤ 512) (hW : oW + 128 ≤ 256) (hB : oB + 128 ≤ 512)
    (e1 : oH = 256 * (e / 2)) (e2 : oW = 128 * (e % 2)) (e3 : oB = 256 * (e / 2) + 128 * (e % 2))
    (hw : ∀ h c, w (ix3 0 h c) = outAt x0 x1 x2 x3 h oH oW oB c hH hW hB) (x : S1x512x128.Idx) :
    w x = outFn x0 x1 x2 x3 ((Rect.unit (s := S4x512x128) ![e, 0, 0] ![1, 512, 128] inb).emb x) := by
  have hx0 : (x 0).val = 0 := by have : (x 0).val < 1 := (x 0).isLt; omega
  obtain ⟨a, h, c, rfl⟩ : ∃ (a : Fin 1) (h : Fin 512) (c : Fin 128), x = ix3 a h c := ⟨x 0, x 1, x 2, eq_ix3 x⟩
  obtain rfl : a = 0 := Fin.ext hx0
  rw [hw]
  unfold outFn
  have h0 : (((Rect.unit (s := S4x512x128) ![e, 0, 0] ![1, 512, 128] inb).emb (ix3 0 h c)) 0).val = e + 1 * 0 := rfl
  have h1 : ((Rect.unit (s := S4x512x128) ![e, 0, 0] ![1, 512, 128] inb).emb (ix3 0 h c)) 1 = h := Fin.ext (by show 0 + 1 * h.val = h.val; omega)
  have h2 : ((Rect.unit (s := S4x512x128) ![e, 0, 0] ![1, 512, 128] inb).emb (ix3 0 h c)) 2 = c := Fin.ext (by show 0 + 1 * c.val = c.val; omega)
  generalize ((Rect.unit (s := S4x512x128) ![e, 0, 0] ![1, 512, 128] inb).emb (ix3 0 h c)) = y at h0 h1 h2
  subst h1; subst h2
  exact outAt_congr x0 x1 x2 x3 _ _ _ _ _ _ _ _ (by rw [h0]; omega) (by rw [h0]; omega) (by rw [h0]; omega)

/-- The output block read entry by entry. -/
theorem blockOut_eq : blockOut (F := Ideal) x0 x1 x2 x3 = outFn x0 x1 x2 x3 := by
  funext y
  unfold blockOut
  refine View.canon_apply_of_pieces (Val := Elt Ideal) (S := S4x512x128) (e := .f32) (outFn x0 x1 x2 x3) _ ?_ y ?_
  · intro p hp
    simp only [List.mem_cons, List.mem_nil_iff, or_false] at hp
    rcases hp with rfl | rfl | rfl | rfl
    · exact fun x => piece_out x0 x1 x2 x3 3 (by decide) inb_S4x512x128_S1x512x128_3_0_0 (k0_pay6 x3 (hid x0 x1 x3) (k0_pay15 x2)) 256 128 (256 + 128)
        (by decide) (by decide) (by decide) (by decide) (by decide) (by decide)
        (fun h c => by unfold k0_pay6; exact img23_apply x0 x1 x2 x3 128 (by decide) slices_S512x256_o0_128_S512x128 h c) x
    · exact fun x => piece_out x0 x1 x2 x3 2 (by decide) inb_S4x512x128_S1x512x128_2_0_0 (k0_pay5 x3 (hid x0 x1 x3) (k0_pay15 x2)) 256 0 (256 + 0)
        (by decide) (by decide) (by decide) (by decide) (by decide) (by decide)
        (fun h c => by unfold k0_pay5; exact img23_apply x0 x1 x2 x3 0 (by decide) slices_S512x256_o0_0_S512x128 h c) x
    · exact fun x => piece_out x0 x1 x2 x3 1 (by decide) inb_S4x512x128_S1x512x128_1_0_0 (k0_pay3 (lin01 x0 x1 x2 x3) (k0_pay17 x3)) 0 128 128
        (by decide) (by decide) (by decide) (by decide) (by decide) (by decide)
        (fun h c => by unfold k0_pay3; exact img01_apply x0 x1 x2 x3 128 (by decide) slices_S512x256_o0_128_S512x128 h c) x
    · exact fun x => piece_out x0 x1 x2 x3 0 (by decide) inb_S4x512x128_S1x512x128_0_0_0 (k0_pay2 (lin01 x0 x1 x2 x3) (k0_pay17 x3)) 0 0 0
        (by decide) (by decide) (by decide) (by decide) (by decide) (by decide)
        (fun h c => by unfold k0_pay2; exact img01_apply x0 x1 x2 x3 0 (by decide) slices_S512x256_o0_0_S512x128 h c) x
  · have hy0 : (y 0).val < 4 := (y 0).isLt
    have hy1 : (y 1).val < 512 := (y 1).isLt
    have hy2 : (y 2).val < 128 := (y 2).isLt
    have hq : (y 0).val = 0 ∨ (y 0).val = 1 ∨ (y 0).val = 2 ∨ (y 0).val = 3 := by omega
    rcases hq with hq | hq | hq | hq
    · exact cover_out _ 0 inb_S4x512x128_S1x512x128_0_0_0 _ (List.Mem.tail _ (List.Mem.tail _ (List.Mem.tail _ (List.Mem.head _)))) y hq
    · exact cover_out _ 1 inb_S4x512x128_S1x512x128_1_0_0 _ (List.Mem.tail _ (List.Mem.tail _ (List.Mem.head _))) y hq
    · exact cover_out _ 2 inb_S4x512x128_S1x512x128_2_0_0 _ (List.Mem.tail _ (List.Mem.head _)) y hq
    · exact cover_out _ 3 inb_S4x512x128_S1x512x128_3_0_0 _ (List.Mem.head _) y hq

end Cert.KernelIdeal.Payload

end
-- ==== Proof.LibBlockSum.lean ====
/-
  A sum over J·n consecutive positions of a function that vanishes outside one block of n positions is the sum over
  that block: with K = j·n + k, the terms with K / n ≠ j are zero and the rest are re-indexed by k.
  Used for products with block-diagonal matrices: only the diagonal block meets the row.
-/
import Mathlib.Algebra.BigOperators.Fin
import Mathlib.Logic.Equiv.Fin.Basic

namespace Cert.Lib.BlockSum

/-- The position j·n + k lies below J·n when j < J and k < n. -/
theorem pos_lt {J n j k : Nat} (hj : j < J) (hk : k < n) : j * n + k < J * n := by
  have h1 : (j + 1) * n ≤ J * n := Nat.mul_le_mul_right n hj
  have h2 : (j + 1) * n = j * n + n := Nat.succ_mul j n
  omega

/-- The sum over all J·n positions of the terms in block j only, re-indexed by the position inside the block. -/
theorem sum_block {M : Type*} [AddCommMonoid M] {N : Nat} (J n : Nat) (hN : N = J * n) (j : Nat) (hj : j < J) (F : Fin N → M) :
    ∑ K : Fin N, (if K.val / n = j then F K else 0)
      = ∑ k : Fin n, F ⟨j * n + k.val, by rw [hN]; exact pos_lt hj k.isLt⟩ := by
  subst hN
  rw [← finProdFinEquiv.sum_comp, Fintype.sum_prod_type]
  have hval : ∀ (a : Fin J) (k : Fin n), (finProdFinEquiv (a, k)).val = a.val * n + k.val := by
    intro a k; simp [finProdFinEquiv, Nat.mul_comm, Nat.add_comm]
  have hdiv : ∀ (a : Fin J) (k : Fin n), (finProdFinEquiv (a, k)).val / n = a.val := by
    intro a k
    rw [hval]
    have hn : 0 < n := Nat.lt_of_le_of_lt (Nat.zero_le _) k.isLt
    rw [Nat.add_comm, Nat.add_mul_div_right _ _ hn, Nat.div_eq_of_lt k.isLt, Nat.zero_add]
  rw [Finset.sum_eq_single (⟨j, hj⟩ : Fin J)]
  · refine Finset.sum_congr rfl fun k _ => ?_
    rw [if_pos (hdiv ⟨j, hj⟩ k)]
    exact congrArg F (Fin.ext (hval ⟨j, hj⟩ k))
  · intro a _ ha
    refine Finset.sum_eq_zero fun k _ => ?_
    rw [if_neg]
    rw [hdiv a k]
    exact fun h => ha (Fin.ext h)
  · intro h; exact absurd (Finset.mem_univ _) h

end Cert.Lib.BlockSum
-- ==== Proof.KerPoint.lean ====
import proofs.«106046_g2000301762116789_pallasbulk_831_2_alg».proof.Proof.KerStrip
import proofs.«106046_g2000301762116789_pallasbulk_831_2_alg».proof.Proof.KerPayload
import proofs.«106046_g2000301762116789_pallasbulk_831_2_alg».proof.Proof.LibBlockSum
import proofs.«106046_g2000301762116789_pallasbulk_831_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Point

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.KernelIdeal.Body Cert.KernelIdeal.Strip Cert.KernelIdeal.Payload Cert.Lib.BlockSum

/-!
  One grid point of the packed kernel against the specification.

  The point's inputs are: the four images 4t … 4t + 3 as rows of 64 numbers; the three band matrices placed four times on the
  diagonal of a 256×512 matrix (zero elsewhere); the second matrix placed twice on the diagonal of a 256×256 matrix; the two
  bias rows repeated four times along the lanes. A product of a row with a block-diagonal matrix only meets the diagonal block
  (x · 0 = 0 holds for every extended real, so nothing here needs finiteness), so lane 128e + c of the hidden layer is the
  specification's hidden value of image 4t + e at lane c, and the result for image e is the specification's.
-/

variable (X : Cert.Spec.SX.Idx → EReal) (A : Cert.Spec.SA.Idx → EReal) (W : Cert.Spec.SW.Idx → EReal) (B : Cert.Spec.SB.Idx → EReal)
variable (t : Fin 64)
variable (x0 : Vec Ideal S4x512x64 .f32) (x1 : Vec Ideal S3x256x512 .bf16) (x2 : Vec Ideal S256x256 .bf16) (x3 : Vec Ideal S2x512 .f32)

/-- Image 4t + e of the batch, as a number below 256. -/
abbrev img (t : Fin 64) (e : Fin 4) : Fin 256 := ⟨4 * t.val + e.val, by have := t.isLt; have := e.isLt; omega⟩

section
variable (hx0 : ∀ (e : Fin 4) (h : Fin 512) (k : Fin 64),
    (x0 (ix3 e h k) : EReal) = X (ix4 (img t e) h ⟨k.val / 4, by have := k.isLt; omega⟩ ⟨k.val % 4, Nat.mod_lt _ (by decide)⟩))
variable (hx1 : ∀ (kh : Fin 3) (K : Fin 256) (C : Fin 512),
    (x1 (ix3 kh K C) : EReal) = if K.val / 64 = C.val / 128 then A (ix3 kh ⟨K.val % 64, Nat.mod_lt _ (by decide)⟩ ⟨C.val % 128, Nat.mod_lt _ (by decide)⟩) else 0)
variable (hx2 : ∀ (K : Fin 256) (q : Fin 256),
    (x2 (ix2 K q) : EReal) = if K.val / 128 = q.val / 128 then W (ix2 ⟨K.val % 128, Nat.mod_lt _ (by decide)⟩ ⟨q.val % 128, Nat.mod_lt _ (by decide)⟩) else 0)
variable (hx3 : ∀ (r : Fin 2) (L : Fin 512), (x3 (ix2 r L) : EReal) = B (ix2 r ⟨L.val % 128, Nat.mod_lt _ (by decide)⟩))

include hx0 in
/-- Row 15 + j of the strip, on the lanes of image e, is the padded row j of image 4t + e. -/
theorem strip_xq (j : Nat) (hj : j ≤ 513) (e : Fin 4) (k : Fin 64) :
    (stripFn x0 (ix2 ⟨15 + j, by omega⟩ ⟨e.val * 64 + k.val, by have := e.isLt; have := k.isLt; omega⟩) : EReal) = Cert.Spec.xq X (img t e) j k := by
  have he := e.isLt
  have hk := k.isLt
  unfold stripFn Cert.Spec.xq
  by_cases hj1 : 1 ≤ j ∧ j ≤ 512
  · rw [dif_pos (by show 16 ≤ 15 + j ∧ 15 + j < 528; omega), dif_pos hj1, hx0]
    refine congrArg X (funext fun a => Fin.ext ?_)
    match a with
    | ⟨0, _⟩ => show 4 * t.val + (e.val * 64 + k.val) / 64 = 4 * t.val + e.val; omega
    | ⟨1, _⟩ => show 15 + j - 16 = j - 1; omega
    | ⟨2, _⟩ => show (e.val * 64 + k.val) % 64 / 4 = k.val / 4; omega
    | ⟨3, _⟩ => show (e.val * 64 + k.val) % 64 % 4 = k.val % 4; omega
  · rw [dif_neg (by show ¬(16 ≤ 15 + j ∧ 15 + j < 528); omega), dif_neg hj1]

include hx0 hx1 in
/-- One tap of the packed product at lane C = 128e + c is the specification's tap of image 4t + e at lane c. -/
theorem tap_eq (h : Fin 512) (R : Vec Ideal S512x256 .bf16) (j : Nat) (hj : j ≤ 513)
    (hR : ∀ K : Fin 256, (R (ix2 h K) : EReal) = stripFn x0 (ix2 ⟨15 + j, by omega⟩ K)) (kh : Fin 3) (C : Fin 512) (e : Fin 4) (c : Fin 128)
    (hC : C.val = 128 * e.val + c.val) :
    (∑ K : Fin 256, (R (ix2 h K) : EReal) * x1 (ix3 kh K C)) = Cert.Spec.tap X A (img t e) j kh c := by
  have he := e.isLt
  have hc := c.isLt
  have hCd : C.val / 128 = e.val := by omega
  have hCm : (⟨C.val % 128, Nat.mod_lt _ (by decide)⟩ : Fin 128) = c := Fin.ext (by show C.val % 128 = c.val; omega)
  have step : ∀ K : Fin 256, (R (ix2 h K) : EReal) * x1 (ix3 kh K C)
      = if K.val / 64 = e.val then (stripFn x0 (ix2 ⟨15 + j, by omega⟩ K) : EReal) * A (ix3 kh ⟨K.val % 64, Nat.mod_lt _ (by decide)⟩ c) else 0 := by
    intro K
    rw [hR K, hx1 kh K C, hCd, hCm, mul_ite, mul_zero]
  rw [Finset.sum_congr rfl (fun K _ => step K)]
  rw [sum_block 4 64 rfl e.val he (fun K : Fin 256 => (stripFn x0 (ix2 ⟨15 + j, by omega⟩ K) : EReal) * A (ix3 kh ⟨K.val % 64, Nat.mod_lt _ (by decide)⟩ c))]
  unfold Cert.Spec.tap
  refine Finset.sum_congr rfl fun k _ => ?_
  have hk := k.isLt
  refine congrArg₂ (fun a b : EReal => a * b) (strip_xq X t x0 hx0 j hj e k) (congrArg A (funext fun a => Fin.ext ?_))
  match a with
  | ⟨0, _⟩ => rfl
  | ⟨1, _⟩ => show (e.val * 64 + k.val) % 64 = k.val; omega
  | ⟨2, _⟩ => rfl

include hx0 hx1 hx3 in
/-- Lane 128e + c of the hidden layer is the specification's hidden value of image 4t + e at lane c. -/
theorem hid_lane (h : Fin 512) (C : Fin 512) (e : Fin 4) (c : Fin 128) (hC : C.val = 128 * e.val + c.val) :
    (hid x0 x1 x3 (ix2 h C) : EReal) = Cert.Spec.lk (Cert.Spec.pre X A B (img t e) h c) := by
  have hh := h.isLt
  have hc := c.isLt
  have he := e.isLt
  unfold hid
  rw [pay14_apply]
  unfold Cert.Spec.pre
  refine congrArg Cert.Spec.lk ?_
  rw [tap_eq X A t x0 x1 hx0 hx1 h (rows15 x0) h.val (by omega) (fun K => by unfold rows15; exact rows_apply x0 15 _ h K (by omega)) 0 C e c hC,
    tap_eq X A t x0 x1 hx0 hx1 h (rows16 x0) (h.val + 1) (by omega) (fun K => by
      unfold rows16; exact (rows_apply x0 16 _ h K (by omega)).trans (congrArg (stripFn x0) (funext fun a => Fin.ext (by
        match a with
        | ⟨0, _⟩ => show 16 + h.val = 15 + (h.val + 1); omega
        | ⟨1, _⟩ => rfl)))) 1 C e c hC,
    tap_eq X A t x0 x1 hx0 hx1 h (rows17 x0) (h.val + 2) (by omega) (fun K => by
      unfold rows17; exact (rows_apply x0 17 _ h K (by omega)).trans (congrArg (stripFn x0) (funext fun a => Fin.ext (by
        match a with
        | ⟨0, _⟩ => show 17 + h.val = 15 + (h.val + 2); omega
        | ⟨1, _⟩ => rfl)))) 2 C e c hC,
    hx3 0 C]
  refine congrArg (fun b : EReal => _ + b) (congrArg B (funext fun a => Fin.ext ?_))
  match a with
  | ⟨0, _⟩ => rfl
  | ⟨1, _⟩ => show C.val % 128 = c.val; omega

include hx0 hx1 hx2 hx3 in
/-- The point's result for image e is the specification's result for image 4t + e. -/
theorem out_eq_spec (e : Fin 4) (h : Fin 512) (c : Fin 128) :
    (outFn x0 x1 x2 x3 (ix3 e h c) : EReal) = Cert.Spec.out X A W B (img t e) h c := by
  have he := e.isLt
  have hc := c.isLt
  unfold outFn outAt Cert.Spec.out
  have hq : (128 * (e.val % 2) + c.val) / 128 = e.val % 2 := by omega
  have step : ∀ K : Fin 256,
      (hid x0 x1 x3 (ix2 h ⟨256 * (e.val / 2) + K.val, by have := K.isLt; omega⟩) : EReal)
        * x2 (ix2 K ⟨128 * (e.val % 2) + c.val, by omega⟩)
      = if K.val / 128 = e.val % 2 then
          (hid x0 x1 x3 (ix2 h ⟨256 * (e.val / 2) + K.val, by have := K.isLt; omega⟩) : EReal)
            * W (ix2 ⟨K.val % 128, Nat.mod_lt _ (by decide)⟩ c)
        else 0 := by
    intro K
    rw [hx2 K ⟨128 * (e.val % 2) + c.val, by omega⟩]
    have hm : (⟨(128 * (e.val % 2) + c.val) % 128, Nat.mod_lt _ (by decide)⟩ : Fin 128) = c := Fin.ext (by show (128 * (e.val % 2) + c.val) % 128 = c.val; omega)
    show _ * (if K.val / 128 = (128 * (e.val % 2) + c.val) / 128 then W (ix2 _ ⟨(128 * (e.val % 2) + c.val) % 128, _⟩) else 0) = _
    rw [hq, hm, mul_ite, mul_zero]
  refine congrArg (fun v : EReal => max v Cert.Spec.zeroF) ?_
  show (∑ K : Fin 256, (hid x0 x1 x3 (ix2 h ⟨256 * (e.val / 2) + K.val, _⟩) : EReal) * x2 (ix2 K ⟨128 * (e.val % 2) + c.val, _⟩)) + x3 (ix2 1 ⟨256 * (e.val / 2) + 128 * (e.val % 2) + c.val, _⟩) = _
  rw [Finset.sum_congr rfl (fun K _ => step K)]
  rw [sum_block 2 128 rfl (e.val % 2) (by omega) (fun K : Fin 256 =>
    (hid x0 x1 x3 (ix2 h ⟨256 * (e.val / 2) + K.val, by have := K.isLt; omega⟩) : EReal) * W (ix2 ⟨K.val % 128, Nat.mod_lt _ (by decide)⟩ c))]
  rw [hx3]
  refine congrArg₂ (fun a b : EReal => a + b) (Finset.sum_congr rfl fun k _ => ?_) (congrArg B (funext fun a => Fin.ext ?_))
  · have hk := k.isLt
    refine congrArg₂ (fun a b : EReal => a * b) (hid_lane X A B t x0 x1 x3 hx0 hx1 hx3 h _ e k (by show 256 * (e.val / 2) + (e.val % 2 * 128 + k.val) = 128 * e.val + k.val; omega))
      (congrArg W (funext fun a => Fin.ext ?_))
    match a with
    | ⟨0, _⟩ => show (e.val % 2 * 128 + k.val) % 128 = k.val; omega
    | ⟨1, _⟩ => rfl
  · match a with
    | ⟨0, _⟩ => rfl
    | ⟨1, _⟩ => show (256 * (e.val / 2) + 128 * (e.val % 2) + c.val) % 128 = c.val; omega

end

end Cert.KernelIdeal.Point

end
-- ==== Proof.KerHostCast.lean ====
/-
  What two of the kernel's input arrays hold when the region is entered: the image batch with its last two axes
  merged, and the two bias rows tiled four times along the lanes.

    * the batch [256, 512, 16, 4] is reshaped to [256, 512, 64]: entry (n, h, k) is the argument's entry
      (n, h, k / 4, k % 4), since 4·(k / 4) + k % 4 = k;
    * the bias [2, 128] is reshaped to [1, 2, 1, 128], broadcast along the unit axis to [1, 2, 4, 128] and reshaped
      to [2, 512]: entry (r, L) is the argument's entry (r, L % 128), the copy number L / 128 being the broadcast
      coordinate.
-/
import proofs.«106046_g2000301762116789_pallasbulk_831_2_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.KernelVsHost
import Idealize.ShloMosaic.Lib.Tactic

noncomputable section

open Idealize.ShloMosaic Idealize.ShloMosaic.TcCoe Idealize.SL.Sem Idealize.ShloMosaic.ValueIdx

namespace Cert.KernelIdeal.HostPre

open Cert.KernelIdeal Cert.KernelIdeal.Gen

variable (m : (ℓ : Loc nD τ sig) → Buf (Elt Ideal) ℓ) (c : Dev nD)

/-- A [256, 512, 16, 4] array reshaped to [256, 512, 64], read at (n, h, k): the operand at (n, h, k / 4, k % 4). -/
theorem cast_batch_apply (x : S256x512x16x4.Idx → EReal) (n : Fin 256) (h : Fin 512) (k : Fin 64) :
    shapeCast S256x512x64 x shapeCasts_S256x512x16x4_S256x512x64 (ix3 n h k)
      = x (ix4 n h ⟨k.val / 4, by omega⟩ ⟨k.val % 4, Nat.mod_lt _ (by decide)⟩) :=
  shapeCast_apply _ _ _ _ (by
    rw [Shape.rowMajor_val_four, Shape.rowMajor_val_three]
    show ((n.val * 512 + h.val) * 16 + k.val / 4) * 4 + k.val % 4 = (n.val * 512 + h.val) * 64 + k.val
    omega)

/-- A [2, 128] array reshaped to [1, 2, 1, 128], broadcast to [1, 2, 4, 128] and reshaped to [2, 512], read at (r, L):
    the operand at (r, L % 128). -/
theorem tile_bias_apply (b : S2x128.Idx → EReal) (r : Fin 2) (L : Fin 512) :
    shapeCast S2x512 (broadcastInDim S1x2x4x128 ![0, 1, 2, 3] bcast_S1x2x1x128_S1x2x4x128_0_1_2_3
        (shapeCast S1x2x1x128 b shapeCasts_S2x128_S1x2x1x128)) shapeCasts_S1x2x4x128_S2x512 (ix2 r L)
      = b (ix2 r ⟨L.val % 128, Nat.mod_lt _ (by decide)⟩) := by
  rw [shapeCast_apply _ _ (ix2 r L) (ix4 (0 : Fin 1) r (⟨L.val / 128, by omega⟩ : Fin 4) (⟨L.val % 128, Nat.mod_lt _ (by decide)⟩ : Fin 128)) (by
    rw [Shape.rowMajor_val_four, Shape.rowMajor_val_two]
    show ((0 * 2 + r.val) * 4 + L.val / 128) * 128 + L.val % 128 = r.val * 512 + L.val
    omega)]
  rw [broadcastInDim_apply _ _ _ _ (ix4 (0 : Fin 1) r (0 : Fin 1) (⟨L.val % 128, Nat.mod_lt _ (by decide)⟩ : Fin 128)) (by
    intro a; fin_cases a <;> rfl)]
  exact shapeCast_apply _ _ _ _ (by
    rw [Shape.rowMajor_val_two, Shape.rowMajor_val_four]
    show r.val * 128 + L.val % 128 = ((0 * 2 + r.val) * 1 + 0) * 128 + L.val % 128
    omega)

/-- The reshaped batch, as the host operations' term. -/
theorem v29_eq : (Gen.V m c main_call0_v29 : S256x512x64.Idx → EReal)
    = shapeCast S256x512x64 (m ((c : Thread nD τ).loc main_arg0)) shapeCasts_S256x512x16x4_S256x512x64 := by
  show StableHlo.after hostOps0 (fun b => m (c, b)) (Proc.devRef .tc main_call0_v29) = _
  after_results
  rfl

/-- Entry (n, h, k) of the reshaped batch is the argument at pixel k / 4, channel k % 4 of row h of image n. -/
theorem x3_apply (n : Fin 256) (h : Fin 512) (k : Fin 64) :
    (Gen.V m c main_call0_v29 : S256x512x64.Idx → EReal) (ix3 n h k)
      = m ((c : Thread nD τ).loc main_arg0) (ix4 n h ⟨k.val / 4, by omega⟩ ⟨k.val % 4, Nat.mod_lt _ (by decide)⟩) := by
  rw [v29_eq]
  exact cast_batch_apply _ n h k

/-- The tiled bias, as the host operations' term. -/
theorem v28_eq : (Gen.V m c main_call0_v28 : S2x512.Idx → EReal)
    = shapeCast S2x512 (broadcastInDim S1x2x4x128 ![0, 1, 2, 3] bcast_S1x2x1x128_S1x2x4x128_0_1_2_3
        (shapeCast S1x2x1x128 (m ((c : Thread nD τ).loc main_arg3)) shapeCasts_S2x128_S1x2x1x128)) shapeCasts_S1x2x4x128_S2x512 := by
  show StableHlo.after hostOps0 (fun b => m (c, b)) (Proc.devRef .tc main_call0_v28) = _
  after_results
  rfl

/-- Entry (r, L) of the tiled bias is the argument's entry (r, L % 128). -/
theorem biast_apply (r : Fin 2) (L : Fin 512) :
    (Gen.V m c main_call0_v28 : S2x512.Idx → EReal) (ix2 r L)
      = m ((c : Thread nD τ).loc main_arg3) (ix2 r ⟨L.val % 128, Nat.mod_lt _ (by decide)⟩) := by
  rw [v28_eq]
  exact tile_bias_apply _ r L

end Cert.KernelIdeal.HostPre
-- ==== Proof.KerBlocks.lean ====
/-
  From the grid steps' blocks to the whole output array of the packed program.

  Grid step t reads block (t, 0, 0) of the [256, 512, 64] input — the four images 4t … 4t + 3 — and the two block-diagonal
  matrices and the repeated bias rows whole, and writes block (t, 0, 0) of the [256, 512, 128] output: the rows of those four
  images.  Entry (e, h, c) of what it writes is the specified result of image 4t + e, so step t writes exactly the entries
  (4t + e, h, c) of `Cert.Spec.G3`; the step that covers image n is step n / 4, and the 64 blocks tile the array.

  The two block-diagonal matrices are taken as hypotheses, entry by entry: the bands on the diagonal of a 256×512 matrix
  (`habd`) and the second matrix on the diagonal of a 256×256 matrix (`hw2bd`), zero elsewhere.
-/
import proofs.«106046_g2000301762116789_pallasbulk_831_2_alg».proof.Proof.KerPoint
import proofs.«106046_g2000301762116789_pallasbulk_831_2_alg».proof.Proof.KerHostCast

noncomputable section

namespace Cert.KernelIdeal.KerBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The specified result over the four argument arrays as launched. -/
abbrev G (c : Dev nD) : FVec Ideal S256x512x128 .f32 :=
  Cert.Spec.G3 (m ((c.tc : Thread nD τ).loc main_arg0)) (m ((c.tc : Thread nD τ).loc main_arg1))
    (m ((c.tc : Thread nD τ).loc main_arg2)) (m ((c.tc : Thread nD τ).loc main_arg3))

/-- A grid step as a number below 64. -/
abbrev pt (t : Fin cfg0.N) : Fin 64 := Fin.cast N_0 t

/-- The block indices of the five windows at step t: the input and the output move with t along the images, four at a
    time; the two matrices and the bias rows stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The input blocks of a step -/

/-- The first block of step t: image e of the four is image 4t + e of the batch, each row read as 64 numbers. -/
theorem iblk0_apply (c : Dev nD) (t : Fin cfg0.N) (e : Fin 4) (h : Fin 512) (k : Fin 64) :
    ((iblk m c 0 t : Vec Ideal S4x512x64 .f32) (ix3 e h k) : EReal)
      = m ((c.tc : Thread nD τ).loc main_arg0)
          (ix4 (Point.img (pt t) e) h ⟨k.val / 4, by have := k.isLt; omega⟩ ⟨k.val % 4, Nat.mod_lt _ (by decide)⟩) := by
  obtain ⟨e0, e1, e2, -⟩ := idx_facts t
  show V m c main_call0_v29 (((cfg0.win 0).blk t).view.emb (ix3 e h k)) = _
  have he : ((cfg0.win 0).blk t).view.emb (ix3 e h k) = ix3 (Point.img (pt t) e) h k := by
    funext a; apply Fin.ext
    match a with
    | ⟨0, _⟩ => show win0_0.index t (0 : Fin 3) * 4 + 1 * e.val = 4 * t.val + e.val; omega
    | ⟨1, _⟩ => show win0_0.index t (1 : Fin 3) * 512 + 1 * h.val = h.val; omega
    | ⟨2, _⟩ => show win0_0.index t (2 : Fin 3) * 64 + 1 * k.val = k.val; omega
  rw [he]
  exact HostPre.x3_apply m c (Point.img (pt t) e) h k

/-- The second block is the 256×512 matrices, whole. -/
theorem iblk1_eq (c : Dev nD) (t : Fin cfg0.N) :
    (iblk m c 1 t : Vec Ideal S3x256x512 .bf16) = V m c main_call0_v16 := by
  obtain ⟨-, -, -, e0, e1, e2, -⟩ := idx_facts t
  funext y
  show V m c main_call0_v16 (((cfg0.win 1).blk t).view.emb y) = _
  have he : ((cfg0.win 1).blk t).view.emb y = y := by
    funext a; apply Fin.ext
    match a with
    | ⟨0, _⟩ => show win0_1.index t (0 : Fin 3) * 3 + 1 * (y 0).val = (y 0).val; omega
    | ⟨1, _⟩ => show win0_1.index t (1 : Fin 3) * 256 + 1 * (y 1).val = (y 1).val; omega
    | ⟨2, _⟩ => show win0_1.index t (2 : Fin 3) * 512 + 1 * (y 2).val = (y 2).val; omega
  rw [he]

/-- The third block is the 256×256 matrix, whole. -/
theorem iblk2_eq (c : Dev nD) (t : Fin cfg0.N) :
    (iblk m c 2 t : Vec Ideal S256x256 .bf16) = V m c main_call0_v25 := by
  obtain ⟨-, -, -, -, -, -, e0, e1, -⟩ := idx_facts t
  funext y
  show V m c main_call0_v25 (((cfg0.win 2).blk t).view.emb y) = _
  have he : ((cfg0.win 2).blk t).view.emb y = y := by
    funext a; apply Fin.ext
    match a with
    | ⟨0, _⟩ => show win0_2.index t (0 : Fin 2) * 256 + 1 * (y 0).val = (y 0).val; omega
    | ⟨1, _⟩ => show win0_2.index t (1 : Fin 2) * 256 + 1 * (y 1).val = (y 1).val; omega
  rw [he]

/-- The fourth block is the repeated bias rows, whole: entry (r, L) is b[r, L % 128]. -/
theorem iblk3_apply (c : Dev nD) (t : Fin cfg0.N) (r : Fin 2) (L : Fin 512) :
    ((iblk m c 3 t : Vec Ideal S2x512 .f32) (ix2 r L) : EReal)
      = m ((c.tc : Thread nD τ).loc main_arg3) (ix2 r ⟨L.val % 128, Nat.mod_lt _ (by decide)⟩) := by
  obtain ⟨-, -, -, -, -, -, -, -, e0, e1, -⟩ := idx_facts t
  show V m c main_call0_v28 (((cfg0.win 3).blk t).view.emb (ix2 r L)) = _
  have he : ((cfg0.win 3).blk t).view.emb (ix2 r L) = ix2 r L := by
    funext a; apply Fin.ext
    match a with
    | ⟨0, _⟩ => show win0_3.index t (0 : Fin 2) * 2 + 1 * r.val = r.val; omega
    | ⟨1, _⟩ => show win0_3.index t (1 : Fin 2) * 512 + 1 * L.val = L.val; omega
  rw [he]
  exact HostPre.biast_apply m c r L

/-! ## What a step writes back -/

/-- What the step leaves in its output block is the pure function of its four input blocks. -/
theorem outs_eq (c : Dev nD) (t : Fin cfg0.N) :
    outsAt0 m c t = Payload.outFn (iblk m c 0 t) (iblk m c 1 t) (iblk m c 2 t) (iblk m c 3 t) := by
  unfold outsAt0
  exact (Body.out_eq (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t)).trans
    (Payload.blockOut_eq (iblk m c 0 t) (iblk m c 1 t) (iblk m c 2 t) (iblk m c 3 t))

/-- The step's block at an index `y` whose image, row and lane are `e`, `h` and `cc`. -/
theorem out_at (X : Cert.Spec.SX.Idx → EReal) (A : Cert.Spec.SA.Idx → EReal) (W : Cert.Spec.SW.Idx → EReal) (B : Cert.Spec.SB.Idx → EReal)
    (t : Fin 64) (x0 : Vec Ideal S4x512x64 .f32) (x1 : Vec Ideal S3x256x512 .bf16) (x2 : Vec Ideal S256x256 .bf16) (x3 : Vec Ideal S2x512 .f32)
    (hx0 : ∀ (e : Fin 4) (h : Fin 512) (k : Fin 64),
      (x0 (ix3 e h k) : EReal) = X (ix4 (Point.img t e) h ⟨k.val / 4, by have := k.isLt; omega⟩ ⟨k.val % 4, Nat.mod_lt _ (by decide)⟩))
    (hx1 : ∀ (kh : Fin 3) (K : Fin 256) (C : Fin 512),
      (x1 (ix3 kh K C) : EReal) = if K.val / 64 = C.val / 128 then A (ix3 kh ⟨K.val % 64, Nat.mod_lt _ (by decide)⟩ ⟨C.val % 128, Nat.mod_lt _ (by decide)⟩) else 0)
    (hx2 : ∀ (K : Fin 256) (q : Fin 256),
      (x2 (ix2 K q) : EReal) = if K.val / 128 = q.val / 128 then W (ix2 ⟨K.val % 128, Nat.mod_lt _ (by decide)⟩ ⟨q.val % 128, Nat.mod_lt _ (by decide)⟩) else 0)
    (hx3 : ∀ (r : Fin 2) (L : Fin 512), (x3 (ix2 r L) : EReal) = B (ix2 r ⟨L.val % 128, Nat.mod_lt _ (by decide)⟩))
    (y : S4x512x128.Idx) (e : Fin 4) (h : Fin 512) (cc : Fin 128) (he : (y 0).val = e.val) (hh : (y 1).val = h.val) (hc : (y 2).val = cc.val) :
    (Payload.outFn x0 x1 x2 x3 y : EReal) = Cert.Spec.out X A W B (Point.img t e) h cc := by
  have hy : y = ix3 e h cc := by
    funext d; apply Fin.ext
    match d with
    | ⟨0, _⟩ => exact he
    | ⟨1, _⟩ => exact hh
    | ⟨2, _⟩ => exact hc
  rw [hy]
  exact Point.out_eq_spec X A W B t x0 x1 x2 x3 hx0 hx1 hx2 hx3 e h cc

/-- Step t writes back block t of the specified result. -/
theorem flushed_eq (habd : ∀ (c : Dev nD) (kh : Fin 3) (K : Fin 256) (C : Fin 512),
    (Gen.V m c main_call0_v16 : S3x256x512.Idx → EReal) (ix3 kh K C)
      = if K.val / 64 = C.val / 128 then
          m ((c.tc : Thread nD τ).loc main_arg1) (ix3 kh ⟨K.val % 64, Nat.mod_lt _ (by decide)⟩ ⟨C.val % 128, Nat.mod_lt _ (by decide)⟩)
        else (0 : EReal))
    (hw2bd : ∀ (c : Dev nD) (K C : Fin 256),
    (Gen.V m c main_call0_v25 : S256x256.Idx → EReal) (ix2 K C)
      = if K.val / 128 = C.val / 128 then
          m ((c.tc : Thread nD τ).loc main_arg2) (ix2 ⟨K.val % 128, Nat.mod_lt _ (by decide)⟩ ⟨C.val % 128, Nat.mod_lt _ (by decide)⟩)
        else (0 : EReal))
    (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4, outs_eq]
  obtain ⟨-, -, -, -, -, -, -, -, -, -, e0, e1, e2⟩ := idx_facts t
  funext j
  have hj0 : (j 0).val < 4 := (j 0).isLt
  have hj1 : (j 1).val < 512 := (j 1).isLt
  have hj2 : (j 2).val < 128 := (j 2).isLt
  show Payload.outFn (iblk m c 0 t) (iblk m c 1 t) (iblk m c 2 t) (iblk m c 3 t) j = G m c (((cfg0.win 4).blk t).view.emb j)
  have he : ((cfg0.win 4).blk t).view.emb j
      = ix3 (Point.img (pt t) (⟨(j 0).val, hj0⟩ : Fin 4)) (⟨(j 1).val, hj1⟩ : Fin 512) (⟨(j 2).val, hj2⟩ : Fin 128) := by
    funext a; apply Fin.ext
    match a with
    | ⟨0, _⟩ => show win0_4.index t (0 : Fin 3) * 4 + 1 * (j 0).val = 4 * t.val + (j 0).val; omega
    | ⟨1, _⟩ => show win0_4.index t (1 : Fin 3) * 512 + 1 * (j 1).val = (j 1).val; omega
    | ⟨2, _⟩ => show win0_4.index t (2 : Fin 3) * 128 + 1 * (j 2).val = (j 2).val; omega
  rw [he]
  exact out_at (m ((c.tc : Thread nD τ).loc main_arg0)) (m ((c.tc : Thread nD τ).loc main_arg1))
    (m ((c.tc : Thread nD τ).loc main_arg2)) (m ((c.tc : Thread nD τ).loc main_arg3)) (pt t)
    (iblk m c 0 t) (iblk m c 1 t) (iblk m c 2 t) (iblk m c 3 t)
    (iblk0_apply m c t)
    (fun kh K C => (congrFun (iblk1_eq m c t) (ix3 kh K C)).trans (habd c kh K C))
    (fun K q => (congrFun (iblk2_eq m c t) (ix2 K q)).trans (hw2bd c K q))
    (iblk3_apply m c t) j
    (⟨(j 0).val, hj0⟩ : Fin 4) (⟨(j 1).val, hj1⟩ : Fin 512) (⟨(j 2).val, hj2⟩ : Fin 128) rfl rfl rfl

/-! ## The blocks tile the array -/

/-- Entry (n, h, c) of the output is in the block of step n / 4. -/
theorem cover (i : S256x512x128.Idx) :
    ∃ t : Fin cfg0.N, (cfg0.win 4).flush t = true ∧ i ∈ ((cfg0.win 4).blk t).view.set := by
  have hi0 : (i 0).val < 256 := (i 0).isLt
  have hi1 : (i 1).val < 512 := (i 1).isLt
  have hi2 : (i 2).val < 128 := (i 2).isLt
  obtain ⟨t, ht⟩ : ∃ t : Fin cfg0.N, t.val = (i 0).val / 4 :=
    ⟨Fin.cast N_0.symm (⟨(i 0).val / 4, by omega⟩ : Fin 64), rfl⟩
  obtain ⟨-, -, -, -, -, -, -, -, -, -, e0, e1, e2⟩ := idx_facts t
  refine ⟨t, flush0_4 t, ?_⟩
  show i ∈ ((View.whole main_call0_v30).slice (win0_4.rect t)).set
  rw [View.set_slice_whole, Rect.mem_set_unit]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

/-- After the grid the output array holds the specified result. -/
theorem final (habd : ∀ (c : Dev nD) (kh : Fin 3) (K : Fin 256) (C : Fin 512),
    (Gen.V m c main_call0_v16 : S3x256x512.Idx → EReal) (ix3 kh K C)
      = if K.val / 64 = C.val / 128 then
          m ((c.tc : Thread nD τ).loc main_arg1) (ix3 kh ⟨K.val % 64, Nat.mod_lt _ (by decide)⟩ ⟨C.val % 128, Nat.mod_lt _ (by decide)⟩)
        else (0 : EReal))
    (hw2bd : ∀ (c : Dev nD) (K C : Fin 256),
    (Gen.V m c main_call0_v25 : S256x256.Idx → EReal) (ix2 K C)
      = if K.val / 128 = C.val / 128 then
          m ((c.tc : Thread nD τ).loc main_arg2) (ix2 ⟨K.val % 128, Nat.mod_lt _ (by decide)⟩ ⟨C.val % 128, Nat.mod_lt _ (by decide)⟩)
        else (0 : EReal))
    (c : Dev nD) : (dats m 0 c).arrAt 4 cfg0.N = G m c :=
  (dats m 0 c).arrAt_eq_of_cover 4 (G m c) (fun t _ => flushed_eq m habd hw2bd c t) (fun i => cover i)

end Cert.KernelIdeal.KerBlocks

end
-- ==== Proof.KerRun.lean ====
/-
  The run of the packed program, read: after the grid the [256, 512, 128] output array holds the specified result, and the
  one operation that follows reads it as [256, 512, 16, 8] — 128 lanes as 16 pixels of 8 channels — into the program's
  result.  The four argument arrays end as they were launched.  The two block-diagonal matrices the program builds before
  its grid enter as hypotheses, entry by entry (`habd`, `hw2bd`).
-/
import proofs.«106046_g2000301762116789_pallasbulk_831_2_alg».proof.Proof.KerBlocks
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The program's result after the operation that follows the grid: the specified result, reshaped. -/
theorem tail_v0 (habd : ∀ (c : Dev nD) (kh : Fin 3) (K : Fin 256) (C : Fin 512),
    (Gen.V m c main_call0_v16 : S3x256x512.Idx → EReal) (ix3 kh K C)
      = if K.val / 64 = C.val / 128 then
          m ((c.tc : Thread nD τ).loc main_arg1) (ix3 kh ⟨K.val % 64, Nat.mod_lt _ (by decide)⟩ ⟨C.val % 128, Nat.mod_lt _ (by decide)⟩)
        else (0 : EReal))
    (hw2bd : ∀ (c : Dev nD) (K C : Fin 256),
    (Gen.V m c main_call0_v25 : S256x256.Idx → EReal) (ix2 K C)
      = if K.val / 128 = C.val / 128 then
          m ((c.tc : Thread nD τ).loc main_arg2) (ix2 ⟨K.val % 128, Nat.mod_lt _ (by decide)⟩ ⟨C.val % 128, Nat.mod_lt _ (by decide)⟩)
        else (0 : EReal))
    (c : Dev nD) :
    Pipeline.afterTail₀ cfgs (dats m) 0 (V0 m) [hostOps1] c main_v0
      = shapeCast S256x512x16x8 (KerBlocks.G m c) shapeCasts_S256x512x128_S256x512x16x8 := by
  unfold Pipeline.afterTail₀
  show StableHlo.after hostOps1 _ (Proc.devRef .tc main_v0) = _
  after_results
  rw [(Pipeline.withArrays_arr spec0 launch0.win.arr_inj c _ _ 4).trans (KerBlocks.final m habd hw2bd c)]
  rfl

/-- Every weakly fair execution of the program ends with its result at the specified function of the launched
    arguments, reshaped to [256, 512, 16, 8], and with the arguments unchanged. -/
theorem run (habd : ∀ (c : Dev nD) (kh : Fin 3) (K : Fin 256) (C : Fin 512),
    (Gen.V m c main_call0_v16 : S3x256x512.Idx → EReal) (ix3 kh K C)
      = if K.val / 64 = C.val / 128 then
          m ((c.tc : Thread nD τ).loc main_arg1) (ix3 kh ⟨K.val % 64, Nat.mod_lt _ (by decide)⟩ ⟨C.val % 128, Nat.mod_lt _ (by decide)⟩)
        else (0 : EReal))
    (hw2bd : ∀ (c : Dev nD) (K C : Fin 256),
    (Gen.V m c main_call0_v25 : S256x256.Idx → EReal) (ix2 K C)
      = if K.val / 128 = C.val / 128 then
          m ((c.tc : Thread nD τ).loc main_arg2) (ix2 ⟨K.val % 128, Nat.mod_lt _ (by decide)⟩ ⟨C.val % 128, Nat.mod_lt _ (by decide)⟩)
        else (0 : EReal)) :
    θ_run (defs (F := Ideal)) (onTc (τ := τ) (main (F := Ideal))) ⟨m, fun _ => 0, ρ⟩ (fun r => ∀ c : Dev nD,
      r.2.mem ((c.tc : Thread nD τ).loc main_v0)
        = shapeCast S256x512x16x8 (Cert.Spec.G3 (m ((c.tc : Thread nD τ).loc main_arg0)) (m ((c.tc : Thread nD τ).loc main_arg1))
            (m ((c.tc : Thread nD τ).loc main_arg2)) (m ((c.tc : Thread nD τ).loc main_arg3))) shapeCasts_S256x512x128_S256x512x16x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v0 (Pipeline.mem_restRefs_of main_v0 (by decide) (by decide))).trans (tail_v0 m habd hw2bd c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerValue

end
-- ==== Proof.LibScatterSet.lean ====
/-
  A scatter whose body keeps the update ("set"), read at one index.

  `Host.scatter d f x idx upd` is a left fold over the update indices in row-major order: update index `j`
  lands at the operand index `d.resultIdx? j idx` when that is inside the operand, and is dropped otherwise.
  Two readings of the fold at an operand index `i`:

    * `scatter_apply_of_miss`: when no update index lands at `i`, the result at `i` is the operand's element,
      whatever the body `f`;
    * `scatter_set_apply_of_hit`: when the body returns the update (`f = fun _ b => b`) and `j` is the ONLY update
      index that lands at `i`, the result at `i` is the update's element at `j`.

  Both come from two facts about a left fold over a list (`foldl_of_miss`, `foldl_of_hit`), proved by induction on
  the list for any step function that leaves index `i` alone unless the step lands there, and sets it when it does;
  the second uses that the list of positions has no repeats.
-/
import Mathlib
import Idealize.ShloMosaic.PureOps.ShapeOps

namespace Cert.Lib.ScatterSet

open Idealize.ShloMosaic

section Fold

variable {ι α N : Type}

/-- A fold of steps, each of which leaves index `i` alone unless it lands at `i`, leaves `i` alone when no step of the
    list lands there. -/
theorem foldl_of_miss (g : N → Option ι) (step : (ι → α) → N → ι → α) (i : ι)
    (hkeep : ∀ r n, g n ≠ some i → step r n i = r i) :
    ∀ (l : List N) (r : ι → α), (∀ n ∈ l, g n ≠ some i) → l.foldl step r i = r i
  | [], _, _ => rfl
  | a :: t, r, h => by
      rw [List.foldl_cons, foldl_of_miss g step i hkeep t _ fun n hn => h n (List.mem_cons_of_mem _ hn)]
      exact hkeep r a (h a List.mem_cons_self)

/-- A fold of steps, each of which sets index `i` to its own value when it lands at `i` and leaves it alone otherwise,
    holds at `i` the value of the one step `n` of the list that lands there (the list without repeats, so that nothing
    after `n` touches `i` again). -/
theorem foldl_of_hit (g : N → Option ι) (step : (ι → α) → N → ι → α) (v : N → α) (i : ι)
    (hkeep : ∀ r n, g n ≠ some i → step r n i = r i) (hset : ∀ r n, g n = some i → step r n i = v n)
    (n : N) (hn : g n = some i) :
    ∀ (l : List N) (r : ι → α), l.Nodup → n ∈ l → (∀ n' ∈ l, g n' = some i → n' = n) → l.foldl step r i = v n
  | [], _, _, hmem, _ => absurd hmem List.not_mem_nil
  | a :: t, r, hnd, hmem, huniq => by
      rw [List.foldl_cons]
      rw [List.nodup_cons] at hnd
      by_cases hat : a = n
      · subst hat
        rw [foldl_of_miss g step i hkeep t _ fun n' hn' e =>
          hnd.1 (huniq n' (List.mem_cons_of_mem _ hn') e ▸ hn')]
        exact hset r a hn
      · have hmem' : n ∈ t := by
          rcases List.mem_cons.1 hmem with e | e
          · exact absurd e.symm hat
          · exact e
        exact foldl_of_hit g step v i hkeep hset n hn t _ hnd.2 hmem' fun n' hn' e =>
          huniq n' (List.mem_cons_of_mem _ hn') e

end Fold

variable {α : Type} {s si u : Shape} {w : Nat}

/-- One step of a scatter leaves index `i` alone unless its update index lands at `i`. -/
theorem step_keep (d : ScatterDims s si u) (f : α → α → α) (idx : IVec si w) (upd : u.Idx → α) (i : s.Idx)
    (r : s.Idx → α) (n : Fin u.numel) (h : d.resultIdx? (u.rowMajor.symm n) idx ≠ some i) :
    (match d.resultIdx? (u.rowMajor.symm n) idx with
      | some k => fun i' => if i' = k then f (r k) (upd (u.rowMajor.symm n)) else r i'
      | none => r) i = r i := by
  cases hg : d.resultIdx? (u.rowMajor.symm n) idx with
  | none => rfl
  | some k =>
    show (if i = k then f (r k) (upd (u.rowMajor.symm n)) else r i) = r i
    rw [if_neg]
    intro e
    exact h (by rw [hg, e])

/-- One step of a scatter whose body returns the update sets the index its update index lands at to the update's element. -/
theorem step_set (d : ScatterDims s si u) (idx : IVec si w) (upd : u.Idx → α) (i : s.Idx)
    (r : s.Idx → α) (n : Fin u.numel) (h : d.resultIdx? (u.rowMajor.symm n) idx = some i) :
    (match d.resultIdx? (u.rowMajor.symm n) idx with
      | some k => fun i' => if i' = k then (fun (_ b : α) => b) (r k) (upd (u.rowMajor.symm n)) else r i'
      | none => r) i = upd (u.rowMajor.symm n) := by
  rw [h]
  show (if i = i then upd (u.rowMajor.symm n) else r i) = _
  rw [if_pos rfl]

/-- Where no update index lands, a scatter leaves the operand's element. -/
theorem scatter_apply_of_miss (d : ScatterDims s si u) (f : α → α → α) (x : s.Idx → α) (idx : IVec si w) (upd : u.Idx → α)
    (i : s.Idx) (h : ∀ j, d.resultIdx? j idx ≠ some i) : Host.scatter d f x idx upd i = x i := by
  unfold Host.scatter
  exact foldl_of_miss (fun n => d.resultIdx? (u.rowMajor.symm n) idx) _ i
    (fun r n hn => step_keep d f idx upd i r n hn) _ x fun n _ => h _

/-- Where exactly one update index `j` lands, a scatter whose body returns the update holds the update's element at `j`. -/
theorem scatter_set_apply_of_hit (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  unfold Host.scatter
  have h := foldl_of_hit (fun n => d.resultIdx? (u.rowMajor.symm n) idx) _ (fun n => upd (u.rowMajor.symm n)) i
    (fun r n hn => step_keep d (fun _ b => b) idx upd i r n hn) (fun r n hn => step_set d idx upd i r n hn)
    (u.rowMajor j) (by rw [Equiv.symm_apply_apply]; exact hj) (List.finRange u.numel) x (List.nodup_finRange _)
    (List.mem_finRange _) fun n' _ e => by
      have := huniq _ e
      rw [← this, Equiv.apply_symm_apply]
  rw [Equiv.symm_apply_apply] at h
  exact h

end Cert.Lib.ScatterSet
-- ==== Proof.KerHostScatter.lean ====
/-
  What the kernel's block-diagonal band array holds when the region is entered.

  The host builds it from zeros by writing the [3, 64, 128] band argument four times, at the starts (0, 0), (64, 128),
  (128, 256), (192, 384) on axes 1 and 2: block b of the diagonal is a copy of the argument. So entry (kh, K, C) is
  the argument's entry (kh, K % 64, C % 128) when K / 64 = C / 128 (the entry lies in diagonal block K / 64), and
  zero otherwise.

  Each write is a scatter whose body returns the update, read at an index through the two general facts about such a
  scatter (an index no update lands at keeps the operand's element; an index exactly one update lands at holds that
  update's element). For them: with the literal start (p, q), update index (k, r, s) lands at (k, p + r, q + s), the
  window staying inside the operand.
-/
import proofs.«106046_g2000301762116789_pallasbulk_831_2_alg».proof.Proof.Gen.KernelIdeal.Frame.Runs
import proofs.«106046_g2000301762116789_pallasbulk_831_2_alg».proof.Proof.LibScatterSet
import Idealize.ShloMosaic.Lib.Pipeline.Value
import Idealize.ShloMosaic.Lib.ValueIdx
import Idealize.ShloMosaic.Lib.ValueLayout
import Idealize.ShloMosaic.Lib.KernelVsHost
import Idealize.ShloMosaic.Lib.Tactic

noncomputable section

open Idealize.ShloMosaic Idealize.ShloMosaic.TcCoe Idealize.SL.Sem Idealize.ShloMosaic.ValueIdx

namespace Cert.KernelIdeal.HostPre

open Cert.KernelIdeal Cert.KernelIdeal.Gen

variable (m : (ℓ : Loc nD τ sig) → Buf (Elt Ideal) ℓ) (c : Dev nD)

/-- Contents carried to a buffer's type and back are the contents (the two transports are inverse). -/
theorem ofBuf_toBuf {T : BufTy} (x : StableHlo.TRef sig T) (v : T.Contents (Elt Ideal)) : x.ofBuf (x.toBuf v) = v := by
  obtain ⟨r, h, h1, h2⟩ := x
  subst h
  rfl

/-- A transport along an equation between a type and itself is the identity. -/
theorem cast_self {α : Type} (h : α = α) (a : α) : cast h a = a := eq_of_heq (cast_heq h a)

/-- The zero pattern of the narrow float format is the number zero. -/
theorem zero_bf16 : Ideal.ofBits .bf16 0x0000#16 = 0 := by simp [Ideal.ofBits, Ideal.ieee]

/-- A start index of two components: the concatenation of two one-element vectors, each a broadcast constant. -/
abbrev ivec2 (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

theorem ivec2_zero (a b : BitVec 32) : ivec2 a b (ix1 0) = a := rfl
theorem ivec2_one (a b : BitVec 32) : ivec2 a b (ix1 1) = b := rfl

/-! ## The band matrices: a [3, 64, 128] update written into [3, 256, 512] at a start on axes 1 and 2 -/

local notation "dA" => scatter_S3x256x512_S2_S3x64x128_012_n_12_0

/-- Every operand axis is a window axis: the window coordinate is the update index's own coordinate. -/
theorem dA_window (j : S3x64x128.Idx) (a : Fin 3) : ScatterDims.window dA j a = (j a).val := by
  fin_cases a <;> rfl

/-- Axis 0 is not scattered; axes 1 and 2 start at the two components of the index vector. -/
theorem dA_start0 (idx : IVec S2 32) (j : S3x64x128.Idx) : ScatterDims.start dA j idx 0 = 0 := rfl
theorem dA_start1 (idx : IVec S2 32) (j : S3x64x128.Idx) : ScatterDims.start dA j idx 1 = (idx (ix1 0)).toInt := by
  have e : ScatterDims.start dA j idx 1 = (idx (ScatterDims.siIdx dA j ⟨0, by decide⟩)).toInt := rfl
  rw [e]
  congr 2
  funext b; fin_cases b; rfl
theorem dA_start2 (idx : IVec S2 32) (j : S3x64x128.Idx) : ScatterDims.start dA j idx 2 = (idx (ix1 1)).toInt := by
  have e : ScatterDims.start dA j idx 2 = (idx (ScatterDims.siIdx dA j ⟨1, by decide⟩)).toInt := rfl
  rw [e]
  congr 2
  funext b; fin_cases b; rfl

/-- With the start (p, q) keeping the window inside the operand, update index (k, r, s) lands at (k, p + r, q + s). -/
theorem dA_resultIdx (idx : IVec S2 32) (p q : Nat) (h0 : (idx (ix1 0)).toInt = (p : Int)) (h1 : (idx (ix1 1)).toInt = (q : Int))
    (hp : p + 64 ≤ 256) (hq : q + 128 ≤ 512) (j : S3x64x128.Idx) :
    ScatterDims.resultIdx? dA j idx
      = some (ix3 (j 0) (⟨p + (j 1).val, by have : (j 1).val < 64 := (j 1).isLt; omega⟩ : Fin 256)
          (⟨q + (j 2).val, by have : (j 2).val < 128 := (j 2).isLt; omega⟩ : Fin 512)) := by
  have hj0 : (j 0).val < 3 := (j 0).isLt
  have hj1 : (j 1).val < 64 := (j 1).isLt
  have hj2 : (j 2).val < 128 := (j 2).isLt
  have H : ∀ a, 0 ≤ ScatterDims.start dA j idx a + ScatterDims.window dA j a
      ∧ ScatterDims.start dA j idx a + ScatterDims.window dA j a < S3x256x512.size a := by
    intro a
    match a with
    | ⟨0, _⟩ =>
      show 0 ≤ ScatterDims.start dA j idx 0 + ((ScatterDims.window dA j 0 : Nat) : Int)
        ∧ ScatterDims.start dA j idx 0 + ((ScatterDims.window dA j 0 : Nat) : Int) < ((3 : Nat) : Int)
      rw [dA_start0, dA_window]; omega
    | ⟨1, _⟩ =>
      show 0 ≤ ScatterDims.start dA j idx 1 + ((ScatterDims.window dA j 1 : Nat) : Int)
        ∧ ScatterDims.start dA j idx 1 + ((ScatterDims.window dA j 1 : Nat) : Int) < ((256 : Nat) : Int)
      rw [dA_start1, dA_window, h0]; omega
    | ⟨2, _⟩ =>
      show 0 ≤ ScatterDims.start dA j idx 2 + ((ScatterDims.window dA j 2 : Nat) : Int)
        ∧ ScatterDims.start dA j idx 2 + ((ScatterDims.window dA j 2 : Nat) : Int) < ((512 : Nat) : Int)
      rw [dA_start2, dA_window, h1]; omega
  unfold ScatterDims.resultIdx?
  rw [dif_pos H]
  congr 1
  funext a
  apply Fin.ext
  match a with
  | ⟨0, _⟩ =>
    show (ScatterDims.start dA j idx 0 + ((ScatterDims.window dA j 0 : Nat) : Int)).toNat = (j 0).val
    rw [dA_start0, dA_window]; omega
  | ⟨1, _⟩ =>
    show (ScatterDims.start dA j idx 1 + ((ScatterDims.window dA j 1 : Nat) : Int)).toNat = p + (j 1).val
    rw [dA_start1, dA_window, h0]; omega
  | ⟨2, _⟩ =>
    show (ScatterDims.start dA j idx 2 + ((ScatterDims.window dA j 2 : Nat) : Int)).toNat = q + (j 2).val
    rw [dA_start2, dA_window, h1]; omega

/-- The update written as diagonal block `b` (start (64·b, 128·b)): inside the block the result is the update at the
    coordinates within the block, elsewhere it is the operand. -/
theorem scatA_apply (x : S3x256x512.Idx → EReal) (idx : IVec S2 32) (A : S3x64x128.Idx → EReal) (b : Nat) (hb : b < 4)
    (h0 : (idx (ix1 0)).toInt = ((64 * b : Nat) : Int)) (h1 : (idx (ix1 1)).toInt = ((128 * b : Nat) : Int))
    (kh : Fin 3) (K : Fin 256) (C : Fin 512) :
    Host.scatter dA (fun _ u => u) x idx A (ix3 kh K C)
      = if K.val / 64 = b ∧ C.val / 128 = b
        then A (ix3 kh ⟨K.val % 64, Nat.mod_lt _ (by decide)⟩ ⟨C.val % 128, Nat.mod_lt _ (by decide)⟩)
        else x (ix3 kh K C) := by
  have R := dA_resultIdx idx (64 * b) (128 * b) h0 h1 (by omega) (by omega)
  have hK := K.isLt
  have hC := C.isLt
  by_cases hc : K.val / 64 = b ∧ C.val / 128 = b
  · rw [if_pos hc]
    refine Cert.Lib.ScatterSet.scatter_set_apply_of_hit dA x idx A _
      (ix3 kh ⟨K.val % 64, Nat.mod_lt _ (by decide)⟩ ⟨C.val % 128, Nat.mod_lt _ (by decide)⟩) ?_ ?_
    · rw [R]
      congr 1
      funext a
      match a with
      | ⟨0, _⟩ => rfl
      | ⟨1, _⟩ => exact Fin.ext (by show 64 * b + K.val % 64 = K.val; omega)
      | ⟨2, _⟩ => exact Fin.ext (by show 128 * b + C.val % 128 = C.val; omega)
    · intro j' hj'
      rw [R] at hj'
      have e := Option.some.inj hj'
      have e0 : j' 0 = kh := congrFun e 0
      have e1 : 64 * b + (j' 1).val = K.val := congrArg Fin.val (congrFun e 1)
      have e2 : 128 * b + (j' 2).val = C.val := congrArg Fin.val (congrFun e 2)
      funext a
      match a with
      | ⟨0, _⟩ => exact e0
      | ⟨1, _⟩ => exact Fin.ext (by show (j' 1).val = K.val % 64; omega)
      | ⟨2, _⟩ => exact Fin.ext (by show (j' 2).val = C.val % 128; omega)
  · rw [if_neg hc]
    refine Cert.Lib.ScatterSet.scatter_apply_of_miss dA _ x idx A _ ?_
    intro j' hj'
    rw [R] at hj'
    have e := Option.some.inj hj'
    have e1 : 64 * b + (j' 1).val = K.val := congrArg Fin.val (congrFun e 1)
    have e2 : 128 * b + (j' 2).val = C.val := congrArg Fin.val (congrFun e 2)
    have hj1 : (j' 1).val < 64 := (j' 1).isLt
    have hj2 : (j' 2).val < 128 := (j' 2).isLt
    exact hc ⟨by omega, by omega⟩

set_option maxRecDepth 16384 in
set_option maxHeartbeats 2000000 in
/-- The block-diagonal band array, as the host operations' term: zeros, with the argument written four times. -/
theorem v16_eq : (Gen.V m c main_call0_v16 : S3x256x512.Idx → EReal)
    = Host.scatter dA (fun _ u => u)
        (Host.scatter dA (fun _ u => u)
          (Host.scatter dA (fun _ u => u)
            (Host.scatter dA (fun _ u => u)
              (broadcastInDim S3x256x512 ![] bcast_S_S3x256x512 (constant (F := Ideal) S_ .bf16 0x0000#16))
              (ivec2 0#32 0#32) (m ((c : Thread nD τ).loc main_arg1)))
            (ivec2 64#32 128#32) (m ((c : Thread nD τ).loc main_arg1)))
          (ivec2 128#32 256#32) (m ((c : Thread nD τ).loc main_arg1)))
        (ivec2 192#32 384#32) (m ((c : Thread nD τ).loc main_arg1)) := by
  show StableHlo.after hostOps0 (fun b => m (c, b)) (Proc.devRef .tc main_call0_v16) = _
  after_results_simp
  repeat (first
    | rw [StableHlo.nullary_result] | rw [StableHlo.unary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  repeat rw [ofBuf_toBuf]
  refine (cast_self (α := S3x256x512.Idx → EReal) _ _).trans ?_
  have hA : (StableHlo.TRef.of main_arg1 : StableHlo.TRef sig ⟨S3x64x128, .bf16⟩).ofBuf (m (c, Proc.devRef .tc main_arg1))
      = (m ((c : Thread nD τ).loc main_arg1) : S3x64x128.Idx → EReal) := rfl
  rw [hA]

/-- Entry (kh, K, C) of the block-diagonal band array: the band's entry (kh, K % 64, C % 128) on the four diagonal
    blocks (K / 64 = C / 128), zero off them. -/
theorem abd_apply (kh : Fin 3) (K : Fin 256) (C : Fin 512) :
    (Gen.V m c main_call0_v16 : S3x256x512.Idx → EReal) (ix3 kh K C)
      = if K.val / 64 = C.val / 128
        then (m ((c : Thread nD τ).loc main_arg1) : S3x64x128.Idx → EReal)
          (ix3 kh ⟨K.val % 64, Nat.mod_lt _ (by decide)⟩ ⟨C.val % 128, Nat.mod_lt _ (by decide)⟩)
        else (0 : EReal) := by
  rw [v16_eq]
  rw [scatA_apply _ _ _ 3 (by decide) (by rw [ivec2_zero]; decide) (by rw [ivec2_one]; decide),
    scatA_apply _ _ _ 2 (by decide) (by rw [ivec2_zero]; decide) (by rw [ivec2_one]; decide),
    scatA_apply _ _ _ 1 (by decide) (by rw [ivec2_zero]; decide) (by rw [ivec2_one]; decide),
    scatA_apply _ _ _ 0 (by decide) (by rw [ivec2_zero]; decide) (by rw [ivec2_one]; decide)]
  have hz : broadcastInDim S3x256x512 ![] bcast_S_S3x256x512 (constant (F := Ideal) S_ .bf16 0x0000#16) (ix3 kh K C) = 0 :=
    zero_bf16
  rw [hz]
  have hK := K.isLt
  have hC := C.isLt
  split_ifs <;> first | rfl | (exfalso; omega)

end Cert.KernelIdeal.HostPre
-- ==== Proof.KerHostScatterW.lean ====
/-
  The second block-diagonal matrix of the packed program, read entry by entry.

  Before its grid the program builds a 256×256 matrix from the 128×128 matrix w: it starts from zeros and writes w twice,
  once with its corner at (0, 0) and once at (128, 128).  Entry (K, C) of the result is therefore w[K % 128, C % 128]
  when K and C lie in the same half (K / 128 = C / 128), and zero otherwise.

  Each write is a scatter whose index vector names the corner and whose window is all of w: update entry j lands at
  corner + j, inside the matrix, so an entry of the result is hit by at most one update entry of each write: an entry no
  update reaches keeps its value, and an entry exactly one update reaches takes that update.
-/
import proofs.«106046_g2000301762116789_pallasbulk_831_2_alg».proof.Proof.Gen.KernelIdeal.Frame.Runs
import proofs.«106046_g2000301762116789_pallasbulk_831_2_alg».proof.Proof.LibScatterSet
import Idealize.ShloMosaic.Lib.Pipeline.Value
import Idealize.ShloMosaic.Lib.ValueIdx
import Idealize.ShloMosaic.Lib.KernelVsHost
import Idealize.ShloMosaic.Lib.IdealHost
import Idealize.ShloMosaic.Lib.StableHlo.Run

noncomputable section

open Idealize.ShloMosaic Idealize.ShloMosaic.TcCoe Idealize.SL.Sem Idealize.ShloMosaic.ValueIdx

namespace Cert.KernelIdeal.HostPreW

open Cert.KernelIdeal Cert.KernelIdeal.Gen

/-! ## One write: where an update entry lands -/

/-- The dimension numbers of the two writes: the window is the whole update, the index vector names its corner. -/
abbrev D := scatter_S256x256_S2_S128x128_01_n_01_0

/-- The two-entry index vector (p, q), as the program builds it from two constants. -/
def ivec (p q : BitVec 32) : IVec S2 32 :=
  concatenate S2 0 [⟨S1, broadcastInDim S1 ![] bcast_S_S1 (constantI S_ 32 p)⟩, ⟨S1, broadcastInDim S1 ![] bcast_S_S1 (constantI S_ 32 q)⟩] concatenates_S1_S1_S2_d0

theorem ivec_0 (p q : BitVec 32) : ivec p q (ix1 (0 : Fin 2)) = p := rfl
theorem ivec_1 (p q : BitVec 32) : ivec p q (ix1 (1 : Fin 2)) = q := rfl

/-- The 256×256 array of zeros the writes start from. -/
def zeros : FVec Ideal S256x256 .bf16 := broadcastInDim S256x256 ![] bcast_S_S256x256 (constant (F := Ideal) S_ .bf16 0x0000#16)

theorem zeros_apply (i : S256x256.Idx) : (zeros i : EReal) = 0 := Ideal.ofBits_zero_bf16

/-- Component k of the corner is read at entry k of the index vector. -/
theorem siIdx_eq (j : S128x128.Idx) (k : Nat) (hk : k < D.scatterDimsToOperandDims.length) (hk2 : k < 2) :
    D.siIdx j ⟨k, hk⟩ = ix1 (⟨k, hk2⟩ : Fin 2) := by
  funext b
  match b with
  | ⟨0, _⟩ => rfl

theorem start_0 (j : S128x128.Idx) (idx : IVec S2 32) : D.start j idx (0 : Fin 2) = (idx (ix1 (0 : Fin 2))).toInt := by
  unfold ScatterDims.start
  rw [dif_pos (by decide)]
  exact congrArg (fun i => (idx i).toInt) (siIdx_eq j 0 _ (by decide))

theorem start_1 (j : S128x128.Idx) (idx : IVec S2 32) : D.start j idx (1 : Fin 2) = (idx (ix1 (1 : Fin 2))).toInt := by
  unfold ScatterDims.start
  rw [dif_pos (by decide)]
  exact congrArg (fun i => (idx i).toInt) (siIdx_eq j 1 _ (by decide))

theorem window_0 (j : S128x128.Idx) : D.window j (0 : Fin 2) = (j 0).val := rfl
theorem window_1 (j : S128x128.Idx) : D.window j (1 : Fin 2) = (j 1).val := rfl

/-- With the corner at (P, P) and the window inside the matrix, update entry j lands at (P + j₀, P + j₁). -/
theorem resultIdx_eq (P : Nat) (hP : P + 128 ≤ 256) (idx : IVec S2 32) (h0 : (idx (ix1 (0 : Fin 2))).toInt = (P : Int))
    (h1 : (idx (ix1 (1 : Fin 2))).toInt = (P : Int)) (j : S128x128.Idx) :
    D.resultIdx? j idx = some (ix2 (⟨P + (j 0).val, by have h : (j 0).val < 128 := (j 0).isLt; omega⟩ : Fin 256)
      (⟨P + (j 1).val, by have h : (j 1).val < 128 := (j 1).isLt; omega⟩ : Fin 256)) := by
  have hj0 : (j 0).val < 128 := (j 0).isLt
  have hj1 : (j 1).val < 128 := (j 1).isLt
  have e0 : D.start j idx (0 : Fin 2) + D.window j (0 : Fin 2) = ((P + (j 0).val : Nat) : Int) := by
    rw [start_0, window_0, h0]; push_cast; rfl
  have e1 : D.start j idx (1 : Fin 2) + D.window j (1 : Fin 2) = ((P + (j 1).val : Nat) : Int) := by
    rw [start_1, window_1, h1]; push_cast; rfl
  unfold ScatterDims.resultIdx?
  rw [dif_pos (by
    intro a
    match a with
    | ⟨0, _⟩ => rw [show ((⟨0, by decide⟩ : Fin 2)) = (0 : Fin 2) from rfl, e0]; show (0 : Int) ≤ _ ∧ _ < (256 : Int); omega
    | ⟨1, _⟩ => rw [show ((⟨1, by decide⟩ : Fin 2)) = (1 : Fin 2) from rfl, e1]; show (0 : Int) ≤ _ ∧ _ < (256 : Int); omega)]
  refine congrArg some (funext fun a => Fin.ext ?_)
  match a with
  | ⟨0, _⟩ => show (D.start j idx (0 : Fin 2) + D.window j (0 : Fin 2)).toNat = P + (j 0).val; rw [e0]; omega
  | ⟨1, _⟩ => show (D.start j idx (1 : Fin 2) + D.window j (1 : Fin 2)).toNat = P + (j 1).val; rw [e1]; omega

theorem toInt_0 : ((0#32 : BitVec 32)).toInt = ((0 : Nat) : Int) := by decide
theorem toInt_128 : ((128#32 : BitVec 32)).toInt = ((128 : Nat) : Int) := by decide

/-! ## The two writes, entry by entry -/

/-- Two copies of a 128×128 matrix written at (0, 0) and at (128, 128) into a 256×256 array of zeros, entry by entry. -/
theorem two_blocks_apply (w : FVec Ideal S128x128 .bf16) (K C : Fin 256) :
    (Host.scatter D (fun _ b => b) (Host.scatter D (fun _ b => b) zeros (ivec 0#32 0#32) w) (ivec 128#32 128#32) w (ix2 K C) : EReal)
      = if K.val / 128 = C.val / 128 then
          (w (ix2 ⟨K.val % 128, Nat.mod_lt _ (by decide)⟩ ⟨C.val % 128, Nat.mod_lt _ (by decide)⟩) : EReal)
        else (0 : EReal) := by
  have hK := K.isLt
  have hC := C.isLt
  have r0 := resultIdx_eq 0 (by omega) (ivec 0#32 0#32) toInt_0 toInt_0
  have r1 := resultIdx_eq 128 (by omega) (ivec 128#32 128#32) toInt_128 toInt_128
  by_cases hhi : 128 ≤ K.val ∧ 128 ≤ C.val
  · -- the entry is in the second copy
    rw [if_pos (by omega)]
    refine (Cert.Lib.ScatterSet.scatter_set_apply_of_hit D _ (ivec 128#32 128#32) w (ix2 K C)
      (ix2 (⟨K.val - 128, by omega⟩ : Fin 128) (⟨C.val - 128, by omega⟩ : Fin 128)) ?_ ?_).trans ?_
    · rw [r1]
      refine congrArg some (funext fun a => Fin.ext ?_)
      match a with
      | ⟨0, _⟩ => show 128 + (K.val - 128) = K.val; omega
      | ⟨1, _⟩ => show 128 + (C.val - 128) = C.val; omega
    · intro j' h
      rw [r1] at h
      have h' := Option.some.inj h
      have h0 : 128 + (j' 0).val = K.val := congrArg (fun i : S256x256.Idx => (i 0).val) h'
      have h1 : 128 + (j' 1).val = C.val := congrArg (fun i : S256x256.Idx => (i 1).val) h'
      funext a; apply Fin.ext
      match a with
      | ⟨0, _⟩ => show (j' 0).val = K.val - 128; omega
      | ⟨1, _⟩ => show (j' 1).val = C.val - 128; omega
    · refine congrArg w (funext fun a => Fin.ext ?_)
      match a with
      | ⟨0, _⟩ => show K.val - 128 = K.val % 128; omega
      | ⟨1, _⟩ => show C.val - 128 = C.val % 128; omega
  · -- the second copy misses the entry
    refine (Cert.Lib.ScatterSet.scatter_apply_of_miss D _ _ (ivec 128#32 128#32) w (ix2 K C) ?_).trans ?_
    · intro j h
      rw [r1] at h
      have h' := Option.some.inj h
      have h0 : 128 + (j 0).val = K.val := congrArg (fun i : S256x256.Idx => (i 0).val) h'
      have h1 : 128 + (j 1).val = C.val := congrArg (fun i : S256x256.Idx => (i 1).val) h'
      omega
    · by_cases hlo : K.val < 128 ∧ C.val < 128
      · -- the entry is in the first copy
        rw [if_pos (by omega)]
        refine (Cert.Lib.ScatterSet.scatter_set_apply_of_hit D _ (ivec 0#32 0#32) w (ix2 K C)
          (ix2 (⟨K.val, by omega⟩ : Fin 128) (⟨C.val, by omega⟩ : Fin 128)) ?_ ?_).trans ?_
        · rw [r0]
          refine congrArg some (funext fun a => Fin.ext ?_)
          match a with
          | ⟨0, _⟩ => show 0 + K.val = K.val; omega
          | ⟨1, _⟩ => show 0 + C.val = C.val; omega
        · intro j' h
          rw [r0] at h
          have h' := Option.some.inj h
          have h0 : 0 + (j' 0).val = K.val := congrArg (fun i : S256x256.Idx => (i 0).val) h'
          have h1 : 0 + (j' 1).val = C.val := congrArg (fun i : S256x256.Idx => (i 1).val) h'
          funext a; apply Fin.ext
          match a with
          | ⟨0, _⟩ => show (j' 0).val = K.val; omega
          | ⟨1, _⟩ => show (j' 1).val = C.val; omega
        · refine congrArg w (funext fun a => Fin.ext ?_)
          match a with
          | ⟨0, _⟩ => show K.val = K.val % 128; omega
          | ⟨1, _⟩ => show C.val = C.val % 128; omega
      · -- neither copy reaches the entry: it keeps its zero
        rw [if_neg (by omega)]
        refine (Cert.Lib.ScatterSet.scatter_apply_of_miss D _ _ (ivec 0#32 0#32) w (ix2 K C) ?_).trans (zeros_apply _)
        intro j h
        rw [r0] at h
        have h' := Option.some.inj h
        have h0 : 0 + (j 0).val = K.val := congrArg (fun i : S256x256.Idx => (i 0).val) h'
        have h1 : 0 + (j 1).val = C.val := congrArg (fun i : S256x256.Idx => (i 1).val) h'
        have hj0 : (j 0).val < 128 := (j 0).isLt
        have hj1 : (j 1).val < 128 := (j 1).isLt
        omega

/-! ## The matrix the grid finds is the two writes -/

variable (m : (ℓ : Loc nD τ sig) → Buf (Elt Ideal) ℓ) (c : Dev nD)

/-- What a line of operations leaves is what its second part leaves of what its first part leaves. -/
theorem after_append {Val : EltTy → Type} (l1 l2 : List (HloOp τ sig Val)) (V : Valuation τ sig Val) :
    StableHlo.after (l1 ++ l2) V = StableHlo.after l2 (StableHlo.after l1 V) := by
  induction l1 generalizing V with
  | nil => rfl
  | cons op ops ih => simp only [List.cons_append, StableHlo.after_cons, ih]

/-- None of the operations before the first write touches the 128×128 argument. -/
theorem arg2_kept : ∀ op ∈ List.take 26 (hostOps0 : List (HloOp τ sig (Elt Ideal))), Proc.devRef .tc main_arg2 ∉ op.writes :=
  List.forall_iff_forall_mem.mp (by
    simp only [hostOps0, List.take_succ_cons, List.take_zero, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- The matrix as the grid finds it, stated for any function `fW` equal to the write: the two writes of the argument into
    zeros, at (0, 0) and at (128, 128).  The operations before the first write leave the argument alone. -/
theorem v25_gen (fW : FVec Ideal S256x256 .bf16 → IVec S2 32 → FVec Ideal S128x128 .bf16 → FVec Ideal S256x256 .bf16)
    (hfW : (fun x i u => Host.scatter scatter_S256x256_S2_S128x128_01_n_01_0 (fun _ b => b) x i u) = fW) :
    (Gen.V m c main_call0_v25 : FVec Ideal S256x256 .bf16)
      = fW (fW zeros (ivec 0#32 0#32) (m ((c.tc : Thread nD τ).loc main_arg2))) (ivec 128#32 128#32) (m ((c.tc : Thread nD τ).loc main_arg2)) := by
  show StableHlo.after hostOps0 (fun b => m (c, b)) (Proc.devRef .tc main_call0_v25) = _
  have hsplit : StableHlo.after (hostOps0 : List (HloOp τ sig (Elt Ideal))) (fun b => m (c, b))
      = StableHlo.after (List.drop 26 hostOps0) (StableHlo.after (List.take 26 hostOps0) (fun b => m (c, b))) := by
    rw [← after_append, List.take_append_drop]
  refine (congrFun hsplit (Proc.devRef .tc main_call0_v25)).trans ?_
  have hW : StableHlo.after (List.take 26 (hostOps0 : List (HloOp τ sig (Elt Ideal)))) (fun b => m (c, b)) (Proc.devRef .tc main_arg2)
      = m (c, Proc.devRef .tc main_arg2) := StableHlo.after_of_forall_not_mem _ _ arg2_kept
  generalize StableHlo.after (List.take 26 hostOps0) (fun b => m (c, b)) = W at hW ⊢
  simp only [hostOps0, List.drop_succ_cons, List.drop_zero]
  after_results
  rw [hfW]
  clear hfW
  rw [hW]
  rfl

/-- Entry (K, C) of the 256×256 matrix the grid finds: w[K % 128, C % 128] on the two diagonal blocks, zero elsewhere. -/
theorem w2bd_apply (K C : Fin 256) :
    (Gen.V m c main_call0_v25 : S256x256.Idx → EReal) (ix2 K C)
      = if K.val / 128 = C.val / 128 then
          m ((c.tc : Thread nD τ).loc main_arg2) (ix2 ⟨K.val % 128, Nat.mod_lt _ (by decide)⟩ ⟨C.val % 128, Nat.mod_lt _ (by decide)⟩)
        else (0 : EReal) :=
  (congrFun (v25_gen m c _ rfl) (ix2 K C)).trans (two_blocks_apply (m ((c.tc : Thread nD τ).loc main_arg2)) K C)

end Cert.KernelIdeal.HostPreW

end
-- ==== Proof.RefHost.lean ====
/-
  The padded input of the one-image-per-step program, read entry by entry.

  Before its grid the program rounds the images to the narrower float format (the identity on exact numbers), reads each
  row of 16 pixels of 4 channels as 64 numbers, and puts one row of zeros before and one after the 512 rows of each
  image.  Entry (n, r, k) of the result is therefore pixel k / 4, channel k % 4 of row r - 1 of image n for r = 1 … 512,
  and zero for r = 0 and r = 513: the function `Cert.Spec.xq`.
-/
import proofs.«106046_g2000301762116789_pallasbulk_831_2_alg».proof.Proof.Gen.ReferenceIdeal.Frame
import proofs.«106046_g2000301762116789_pallasbulk_831_2_alg».proof.Proof.Spec
import Idealize.ShloMosaic.Lib.Pipeline.Value
import Idealize.ShloMosaic.Lib.KernelVsHost
import Idealize.ShloMosaic.Lib.StableHlo.Run

noncomputable section

namespace Cert.ReferenceIdeal.RefHost

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ)

/-- The operations before the grid, as one function of the images. -/
def padded (x : FVec Ideal S256x512x16x4 .f32) : FVec Ideal S256x514x64 .bf16 :=
  pad S256x514x64 ![0, 1, 0] ![0, 1, 0] ![0, 0, 0]
    (shapeCast S256x512x64 (truncf .bf16 x bitsLt_bf16_f32) shapeCasts_S256x512x16x4_S256x512x64)
    (sitofp (F := Ideal) .bf16 (constantI S_ 32 0#32)) pads_S256x512x64_S256x514x64_000_110_000 h_S_

/-- The array the grid's first window is cut from is that function of the images as launched. -/
theorem V_padded (c : Dev nD) :
    (V m c main_call0_v2 : FVec Ideal S256x514x64 .bf16) = padded (m ((c : Thread nD τ).loc main_arg0)) := by
  show StableHlo.after hostOps0 (fun b => m (c, b)) (Proc.devRef .tc main_call0_v2) = _
  after_results
  rfl

/-- Entry (n, r, k) of the padded array: a pixel of row r - 1 inside the image, zero on the two added rows. -/
theorem padded_apply (x : FVec Ideal S256x512x16x4 .f32) (n : Fin 256) (r : Fin 514) (k : Fin 64) :
    padded x (ix3 n r k) = Cert.Spec.xq x n r.val k := by
  unfold padded Cert.Spec.xq
  by_cases h : 1 ≤ r.val ∧ r.val ≤ 512
  · rw [dif_pos h]
    have hk : k.val < 64 := k.isLt
    refine (pad_apply_of_inside _ _ _ _ _ _ _ (ix3 n r k) (ix3 n (⟨r.val - 1, by omega⟩ : Fin 512) k) ?_).trans ?_
    · intro a
      match a with
      | ⟨0, _⟩ => show n.val = 0 + n.val * (0 + 1); omega
      | ⟨1, _⟩ => show r.val = 1 + (r.val - 1) * (0 + 1); omega
      | ⟨2, _⟩ => show k.val = 0 + k.val * (0 + 1); omega
    · refine (shapeCast_apply _ _ (ix3 n (⟨r.val - 1, by omega⟩ : Fin 512) k)
        (ix4 n (⟨r.val - 1, by omega⟩ : Fin 512) (⟨k.val / 4, by omega⟩ : Fin 16) (⟨k.val % 4, Nat.mod_lt _ (by decide)⟩ : Fin 4)) ?_).trans rfl
      rw [Shape.rowMajor_val_four, Shape.rowMajor_val_three]
      show ((n.val * 512 + (r.val - 1)) * 16 + k.val / 4) * 4 + k.val % 4 = (n.val * 512 + (r.val - 1)) * 64 + k.val
      omega
  · rw [dif_neg h]
    refine (pad_apply_of_not_inside _ _ _ _ _ _ _ (ix3 n r k) (1 : Fin 3) ?_).trans ?_
    · show ¬(1 ≤ r.val ∧ (r.val - 1) % (0 + 1) = 0 ∧ (r.val - 1) / (0 + 1) < 512)
      have hr : r.val < 514 := r.isLt
      omega
    · exact sitofp_zero

end Cert.ReferenceIdeal.RefHost

end
-- ==== Proof.RefPayload.lean ====
/-
  What one grid step of the one-image-per-step program leaves in its output block, entry by entry.

  The step holds one padded image (514 rows of 64 numbers), the three 64×128 bands, the 128×128 matrix and the two bias
  rows.  Entry (h, c) of its block is
      max( Σ_k lk( pre(h, k) ) · w[k, c] + b[1, c], 0 ),
      pre(h, k) = ((Σ_j X[h, j]·a[0, j, k] + Σ_j X[h+1, j]·a[1, j, k]) + Σ_j X[h+2, j]·a[2, j, k]) + b[0, k],
  where X is the padded image: each of the three products reads the padded rows shifted by its vertical tap.  When the
  padded image is that of image n (`Cert.Spec.xq`), this is `Cert.Spec.out` at image n.  The products are into a zero
  accumulator, so each is the plain sum; the change of float format before the second product is the identity.
-/
import proofs.«106046_g2000301762116789_pallasbulk_831_2_alg».proof.Proof.Gen.ReferenceIdeal.Frame
import proofs.«106046_g2000301762116789_pallasbulk_831_2_alg».proof.Proof.Spec
import proofs.«106046_g2000301762116789_pallasbulk_831_2_alg».proof.Proof.LibDotRows
import Idealize.ShloMosaic.Lib.Pipeline.Value

noncomputable section

namespace Cert.ReferenceIdeal.RefPayload

open Cert.ReferenceIdeal Cert.ReferenceIdeal.Gen Idealize.ShloMosaic Idealize.ShloMosaic.TcCoe Idealize.SL.Sem
open Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-! ## The layout operations of the step, each read at an index -/

/-- Rows `off … off + 511` of the padded image: entry (h, j) is the image's entry (h + off, j). -/
theorem rows_apply (v0 : FVec Ideal S1x514x64 .bf16) (off : Nat) (hoff : off ≤ 2) (sl : S514x64.Slices ![off, 0] S512x64)
    (h : Fin 512) (j : Fin 64) :
    extractStridedSlice S512x64 ![off, 0] (shapeCast S514x64 v0 shapeCasts_S1x514x64_S514x64) sl (ix2 h j)
      = v0 (ix3 (0 : Fin 1) (⟨h.val + off, by omega⟩ : Fin 514) j) := by
  refine (extractStridedSlice_apply _ _ sl (ix2 h j) (ix2 (⟨h.val + off, by omega⟩ : Fin 514) j) ?_).trans ?_
  · intro a
    match a with
    | ⟨0, _⟩ => show h.val + off = off + h.val; omega
    | ⟨1, _⟩ => show j.val = 0 + j.val; omega
  · refine shapeCast_apply _ _ _ (ix3 (0 : Fin 1) (⟨h.val + off, by omega⟩ : Fin 514) j) ?_
    rw [Shape.rowMajor_val_three, Shape.rowMajor_val_two]
    show (0 * 514 + (h.val + off)) * 64 + j.val = (h.val + off) * 64 + j.val
    omega

/-- Band `kh` of the three, loaded as a [1, 64, 128] piece and read as a matrix: entry (j, k) is a[kh, j, k]. -/
theorem band_apply (x1 : FVec Ideal S3x64x128 .bf16) (kh : Nat) (hkh : kh < 3)
    (inb : ∀ a, (![kh, 0, 0] : Fin 3 → Nat) a + S1x64x128.size a ≤ S3x64x128.size a) (j : Fin 64) (k : Fin 128) :
    shapeCast S64x128 (View.ld (Val := Elt Ideal) (e' := .bf16) x1 (Rect.unit (s := S3x64x128) ![kh, 0, 0] S1x64x128.size inb)) shapeCasts_S1x64x128_S64x128 (ix2 j k)
      = x1 (ix3 (⟨kh, hkh⟩ : Fin 3) j k) := by
  refine (shapeCast_apply _ _ (ix2 j k) (ix3 (0 : Fin 1) j k) ?_).trans ?_
  · rw [Shape.rowMajor_val_three, Shape.rowMajor_val_two]
    show (0 * 64 + j.val) * 128 + k.val = j.val * 128 + k.val
    omega
  · show x1 _ = x1 _
    refine congrArg x1 (funext fun a => Fin.ext ?_)
    match a with
    | ⟨0, _⟩ => show kh + 1 * 0 = kh; omega
    | ⟨1, _⟩ => show 0 + 1 * j.val = j.val; omega
    | ⟨2, _⟩ => show 0 + 1 * k.val = k.val; omega

/-- Bias row `r` spread over the 512 rows: entry (h, k) is b[r, k]. -/
theorem bias_apply (v2 : FVec Ideal S2x128 .f32) (r : Nat) (hr : r < 2) (sl : S2x128.Slices ![r, 0] S1x128) (h : Fin 512) (k : Fin 128) :
    broadcastTo S512x128 (extractStridedSlice S1x128 ![r, 0] v2 sl) broadcasts_S1x128_S512x128 (ix2 h k) = v2 (ix2 (⟨r, hr⟩ : Fin 2) k) := by
  refine (broadcastTo_apply _ _ (ix2 h k) (ix2 (0 : Fin 1) k) ?_).trans ?_
  · intro a
    match a with
    | ⟨0, _⟩ => rfl
    | ⟨1, _⟩ => rfl
  · refine extractStridedSlice_apply _ _ sl (ix2 (0 : Fin 1) k) (ix2 (⟨r, hr⟩ : Fin 2) k) ?_
    intro a
    match a with
    | ⟨0, _⟩ => show r = r + 0; omega
    | ⟨1, _⟩ => show k.val = 0 + k.val; omega

/-- A product of 512 rows of 64 numbers with a 64×128 matrix into the zero accumulator, entry by entry. -/
theorem mm1_apply (X : FVec Ideal S512x64 .bf16) (W : FVec Ideal S64x128 .bf16) (h : Fin 512) (k : Fin 128) :
    matmul (F := Ideal) dot_S512x64_S64x128_S512x128_1_0_0_1_n_n none X W (constant S512x128 .f32 0x00000000#32) (ix2 h k)
      = ∑ j : Fin 64, X (ix2 h j) * W (ix2 j k) :=
  Cert.Lib.DotRows.matmul_plain_apply (M := 512) (K := 64) (N := 128) X W h k

/-- The same for 512 rows of 128 numbers and a 128×128 matrix. -/
theorem mm2_apply (X : FVec Ideal S512x128 .bf16) (W : FVec Ideal S128x128 .bf16) (h : Fin 512) (c : Fin 128) :
    matmul (F := Ideal) dot_S512x128_S128x128_S512x128_1_0_0_1_n_n none X W (constant S512x128 .f32 0x00000000#32) (ix2 h c)
      = ∑ k : Fin 128, X (ix2 h k) * W (ix2 k c) :=
  Cert.Lib.DotRows.matmul_plain_apply (M := 512) (K := 128) (N := 128) X W h c

/-! ## The step in two stages -/

/-- The first stage: the three banded products added left to right, plus the first bias row. -/
def conv (v0 : FVec Ideal S1x514x64 .bf16) (v2 : FVec Ideal S2x128 .f32) (v4 v8 v13 : FVec Ideal S1x64x128 .bf16) : FVec Ideal S512x128 .f32 :=
  addf (addf (addf
    (matmul dot_S512x64_S64x128_S512x128_1_0_0_1_n_n none
      (extractStridedSlice S512x64 ![0, 0] (shapeCast S514x64 v0 shapeCasts_S1x514x64_S514x64) slices_S514x64_o0_0_S512x64)
      (shapeCast S64x128 v4 shapeCasts_S1x64x128_S64x128) (constant S512x128 .f32 0x00000000#32))
    (matmul dot_S512x64_S64x128_S512x128_1_0_0_1_n_n none
      (extractStridedSlice S512x64 ![1, 0] (shapeCast S514x64 v0 shapeCasts_S1x514x64_S514x64) slices_S514x64_o1_0_S512x64)
      (shapeCast S64x128 v8 shapeCasts_S1x64x128_S64x128) (constant S512x128 .f32 0x00000000#32)))
    (matmul dot_S512x64_S64x128_S512x128_1_0_0_1_n_n none
      (extractStridedSlice S512x64 ![2, 0] (shapeCast S514x64 v0 shapeCasts_S1x514x64_S514x64) slices_S514x64_o2_0_S512x64)
      (shapeCast S64x128 v13 shapeCasts_S1x64x128_S64x128) (constant S512x128 .f32 0x00000000#32)))
    (broadcastTo S512x128 (extractStridedSlice S1x128 ![0, 0] v2 slices_S2x128_o0_0_S1x128) broadcasts_S1x128_S512x128)

/-- The second stage: the leaky rectifier, the product with the 128×128 matrix, the second bias row, the rectifier. -/
def head (v19 : FVec Ideal S512x128 .f32) (v2 : FVec Ideal S2x128 .f32) (v26 : FVec Ideal S128x128 .bf16) : FVec Ideal S512x128 .f32 :=
  maximumf (addf
    (matmul dot_S512x128_S128x128_S512x128_1_0_0_1_n_n none
      (truncf .bf16 (select (cmpf .ogt v19 (broadcast S512x128 (Scalar.ofBits (F := Ideal) .f32 0x00000000#32))) v19
        (mulf (broadcast S512x128 (Scalar.ofBits (F := Ideal) .f32 0x3DCCCCCD#32)) v19)) bitsLt_bf16_f32)
      v26 (constant S512x128 .f32 0x00000000#32))
    (broadcastTo S512x128 (extractStridedSlice S1x128 ![1, 0] v2 slices_S2x128_o1_0_S1x128) broadcasts_S1x128_S512x128))
    (broadcast S512x128 (Scalar.ofBits (F := Ideal) .f32 0x00000000#32))

/-- The step's arithmetic is the second stage of the first. -/
theorem pay2_eq (v0 : FVec Ideal S1x514x64 .bf16) (v2 : FVec Ideal S2x128 .f32) (v4 v8 v13 : FVec Ideal S1x64x128 .bf16) (v26 : FVec Ideal S128x128 .bf16) :
    k0_pay2 (F := Ideal) v0 v2 v4 v8 v13 v26 = head (conv v0 v2 v4 v8 v13) v2 v26 := rfl

/-- The first stage at (h, k), over the padded image `X` and the bands `a`. -/
def preB (X : FVec Ideal S1x514x64 .bf16) (a : FVec Ideal S3x64x128 .bf16) (b : FVec Ideal S2x128 .f32) (h : Fin 512) (k : Fin 128) : EReal :=
  ((∑ j : Fin 64, X (ix3 (0 : Fin 1) (⟨h.val + 0, by omega⟩ : Fin 514) j) * a (ix3 (⟨0, by omega⟩ : Fin 3) j k)
    + ∑ j : Fin 64, X (ix3 (0 : Fin 1) (⟨h.val + 1, by omega⟩ : Fin 514) j) * a (ix3 (⟨1, by omega⟩ : Fin 3) j k))
    + ∑ j : Fin 64, X (ix3 (0 : Fin 1) (⟨h.val + 2, by omega⟩ : Fin 514) j) * a (ix3 (⟨2, by omega⟩ : Fin 3) j k))
    + b (ix2 (⟨0, by omega⟩ : Fin 2) k)

theorem conv_apply (X : FVec Ideal S1x514x64 .bf16) (a : FVec Ideal S3x64x128 .bf16) (b : FVec Ideal S2x128 .f32) (h : Fin 512) (k : Fin 128) :
    conv X b (View.ld (Val := Elt Ideal) (e' := .bf16) a r0_2) (View.ld (Val := Elt Ideal) (e' := .bf16) a r0_3) (View.ld (Val := Elt Ideal) (e' := .bf16) a r0_4) (ix2 h k) = preB X a b h k := by
  unfold conv preB
  simp only [addf_apply]
  rw [mm1_apply, mm1_apply, mm1_apply, bias_apply b 0 (by omega)]
  simp only [rows_apply X 0 (by omega), rows_apply X 1 (by omega), rows_apply X 2 (by omega),
    band_apply a 0 (by omega), band_apply a 1 (by omega), band_apply a 2 (by omega)]

/-- The second stage at (h, c). -/
theorem head_apply (v19 : FVec Ideal S512x128 .f32) (b : FVec Ideal S2x128 .f32) (w : FVec Ideal S128x128 .bf16) (h : Fin 512) (c : Fin 128) :
    head v19 b w (ix2 h c)
      = max ((∑ k : Fin 128, Cert.Spec.lk (v19 (ix2 h k)) * w (ix2 k c)) + b (ix2 (⟨1, by omega⟩ : Fin 2) c)) Cert.Spec.zeroF := by
  unfold head
  rw [maximumf_apply, addf_apply, mm2_apply, bias_apply b 1 (by omega)]
  rfl

/-! ## The step's block, entry by entry -/

/-- What the step leaves at (h, c) of its [1, 512, 128] block, over whatever its four input blocks hold. -/
theorem out_apply (X : FVec Ideal S1x514x64 .bf16) (a : FVec Ideal S3x64x128 .bf16) (w : FVec Ideal S128x128 .bf16)
    (b : FVec Ideal S2x128 .f32) (h : Fin 512) (c : Fin 128) :
    out0_4 (F := Ideal) X a w b (ix3 (0 : Fin 1) h c)
      = max ((∑ k : Fin 128, Cert.Spec.lk (preB X a b h k) * w (ix2 k c)) + b (ix2 (⟨1, by omega⟩ : Fin 2) c)) Cert.Spec.zeroF := by
  unfold out0_4
  rw [View.canon_unit_zero hz3]
  simp only [View.ld_unit_zero (S := S1x514x64) hz3, View.ld_unit_zero (S := S2x128) hz2, View.ld_unit_zero (S := S128x128) hz2]
  unfold k0_pay1
  refine (shapeCast_apply _ _ (ix3 (0 : Fin 1) h c) (ix2 h c) ?_).trans ?_
  · rw [Shape.rowMajor_val_three, Shape.rowMajor_val_two]
    show h.val * 128 + c.val = (0 * 512 + h.val) * 128 + c.val
    omega
  · rw [pay2_eq, head_apply]
    simp only [conv_apply]

/-- When the first block is the padded image `n`, the step leaves `Cert.Spec.out` of image `n`. -/
theorem out_spec (x : Cert.Spec.SX.Idx → EReal) (n : Fin 256) (X : FVec Ideal S1x514x64 .bf16) (a : FVec Ideal S3x64x128 .bf16)
    (w : FVec Ideal S128x128 .bf16) (b : FVec Ideal S2x128 .f32)
    (hX : ∀ (r : Fin 514) (j : Fin 64), X (ix3 (0 : Fin 1) r j) = Cert.Spec.xq x n r.val j) (h : Fin 512) (c : Fin 128) :
    out0_4 (F := Ideal) X a w b (ix3 (0 : Fin 1) h c) = Cert.Spec.out x a w b n h c := by
  rw [out_apply]
  unfold Cert.Spec.out Cert.Spec.pre Cert.Spec.tap preB
  simp only [hX]
  rfl

end Cert.ReferenceIdeal.RefPayload

end
-- ==== Proof.RefBlocks.lean ====
/-
  From the grid steps' blocks to the whole output array of the one-image-per-step program.

  Grid step t reads block (t, 0, 0) of the padded array — the padded image t — and the bands, the matrix and the bias rows
  whole, and writes block (t, 0, 0) of the [256, 512, 128] output: rows of image t.  So step t writes exactly the entries
  (t, h, c) of `Cert.Spec.G3`, the step that covers image n is step n, and the 256 blocks tile the array.
-/
import proofs.«106046_g2000301762116789_pallasbulk_831_2_alg».proof.Proof.RefHost
import proofs.«106046_g2000301762116789_pallasbulk_831_2_alg».proof.Proof.RefPayload

noncomputable section

namespace Cert.ReferenceIdeal.RefBlocks

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The specified result over the four argument arrays as launched. -/
abbrev G (c : Dev nD) : FVec Ideal S256x512x128 .f32 :=
  Cert.Spec.G3 (m ((c : Thread nD τ).loc main_arg0)) (m ((c : Thread nD τ).loc main_arg1))
    (m ((c : Thread nD τ).loc main_arg2)) (m ((c : Thread nD τ).loc main_arg3))

/-- Which image a grid step works on: its own number. -/
abbrev img (t : Fin cfg0.N) : Fin 256 := Fin.cast N_0 t

/-- The block indices of the five windows at step t: the padded input and the output move with t along the images;
    the bands, the matrix and the bias stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The input blocks of a step -/

/-- The first block of step t is the padded image t. -/
theorem iblk0_apply (c : Dev nD) (t : Fin cfg0.N) (r : Fin 514) (k : Fin 64) :
    (iblk m c 0 t : FVec Ideal S1x514x64 .bf16) (ix3 (0 : Fin 1) r k)
      = Cert.Spec.xq (m ((c : Thread nD τ).loc main_arg0)) (img t) r.val k := by
  obtain ⟨e0, e1, e2, -⟩ := idx_facts t
  show V m c main_call0_v2 (((cfg0.win 0).blk t).view.emb (ix3 (0 : Fin 1) r k)) = _
  have he : ((cfg0.win 0).blk t).view.emb (ix3 (0 : Fin 1) r k) = ix3 (img t) r k := by
    funext a; apply Fin.ext
    match a with
    | ⟨0, _⟩ => show win0_0.index t (0 : Fin 3) * 1 + 1 * 0 = t.val; omega
    | ⟨1, _⟩ => show win0_0.index t (1 : Fin 3) * 514 + 1 * r.val = r.val; omega
    | ⟨2, _⟩ => show win0_0.index t (2 : Fin 3) * 64 + 1 * k.val = k.val; omega
  rw [he, RefHost.V_padded, RefHost.padded_apply]

/-- The second block is the three bands, whole. -/
theorem iblk1_eq (c : Dev nD) (t : Fin cfg0.N) :
    (iblk m c 1 t : FVec Ideal S3x64x128 .bf16) = m ((c : Thread nD τ).loc main_arg1) := by
  obtain ⟨-, -, -, e0, e1, e2, -⟩ := idx_facts t
  funext y
  show V m c main_arg1 (((cfg0.win 1).blk t).view.emb y) = _
  have he : ((cfg0.win 1).blk t).view.emb y = y := by
    funext a; apply Fin.ext
    match a with
    | ⟨0, _⟩ => show win0_1.index t (0 : Fin 3) * 3 + 1 * (y 0).val = (y 0).val; omega
    | ⟨1, _⟩ => show win0_1.index t (1 : Fin 3) * 64 + 1 * (y 1).val = (y 1).val; omega
    | ⟨2, _⟩ => show win0_1.index t (2 : Fin 3) * 128 + 1 * (y 2).val = (y 2).val; omega
  rw [he, V_main_arg1]

/-- The third block is the 128×128 matrix, whole. -/
theorem iblk2_eq (c : Dev nD) (t : Fin cfg0.N) :
    (iblk m c 2 t : FVec Ideal S128x128 .bf16) = m ((c : Thread nD τ).loc main_arg2) := by
  obtain ⟨-, -, -, -, -, -, e0, e1, -⟩ := idx_facts t
  funext y
  show V m c main_arg2 (((cfg0.win 2).blk t).view.emb y) = _
  have he : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  rw [he, V_main_arg2]

/-- The fourth block is the two bias rows, whole. -/
theorem iblk3_eq (c : Dev nD) (t : Fin cfg0.N) :
    (iblk m c 3 t : FVec Ideal S2x128 .f32) = m ((c : Thread nD τ).loc main_arg3) := by
  obtain ⟨-, -, -, -, -, -, -, -, e0, e1, -⟩ := idx_facts t
  funext y
  show V m c main_arg3 (((cfg0.win 3).blk t).view.emb y) = _
  have he : ((cfg0.win 3).blk t).view.emb y = y := by
    funext a; apply Fin.ext
    match a with
    | ⟨0, _⟩ => show win0_3.index t (0 : Fin 2) * 2 + 1 * (y 0).val = (y 0).val; omega
    | ⟨1, _⟩ => show win0_3.index t (1 : Fin 2) * 128 + 1 * (y 1).val = (y 1).val; omega
  rw [he, V_main_arg3]

/-! ## What a step writes back -/

/-- The step's block at an index `y` whose row and lane are `h` and `cc`. -/
theorem out_at (x : Cert.Spec.SX.Idx → EReal) (n : Fin 256) (X : FVec Ideal S1x514x64 .bf16) (a : FVec Ideal S3x64x128 .bf16)
    (w : FVec Ideal S128x128 .bf16) (b : FVec Ideal S2x128 .f32)
    (hX : ∀ (r : Fin 514) (j : Fin 64), X (ix3 (0 : Fin 1) r j) = Cert.Spec.xq x n r.val j)
    (y : S1x512x128.Idx) (h : Fin 512) (cc : Fin 128) (hh : (y 1).val = h.val) (hc : (y 2).val = cc.val) :
    out0_4 (F := Ideal) X a w b y = Cert.Spec.out x a w b n h cc := by
  have hy : y = ix3 (0 : Fin 1) h cc := by
    funext d; apply Fin.ext
    match d with
    | ⟨0, _⟩ => have h0 : (y 0).val < 1 := (y 0).isLt; show (y 0).val = 0; omega
    | ⟨1, _⟩ => exact hh
    | ⟨2, _⟩ => exact hc
  rw [hy]
  exact RefPayload.out_spec x n X a w b hX h cc

/-- Step t writes back block t of the specified result. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  obtain ⟨-, -, -, -, -, -, -, -, -, -, e0, e1, e2⟩ := idx_facts t
  funext j
  have hj0 : (j 0).val < 1 := (j 0).isLt
  have hj1 : (j 1).val < 512 := (j 1).isLt
  have hj2 : (j 2).val < 128 := (j 2).isLt
  show out0_4 (iblk m c 0 t) (iblk m c 1 t) (iblk m c 2 t) (iblk m c 3 t) j = G m c (((cfg0.win 4).blk t).view.emb j)
  have he : ((cfg0.win 4).blk t).view.emb j = ix3 (img t) (⟨(j 1).val, hj1⟩ : Fin 512) (⟨(j 2).val, hj2⟩ : Fin 128) := by
    funext a; apply Fin.ext
    match a with
    | ⟨0, _⟩ => show win0_4.index t (0 : Fin 3) * 1 + 1 * (j 0).val = t.val; omega
    | ⟨1, _⟩ => show win0_4.index t (1 : Fin 3) * 512 + 1 * (j 1).val = (j 1).val; omega
    | ⟨2, _⟩ => show win0_4.index t (2 : Fin 3) * 128 + 1 * (j 2).val = (j 2).val; omega
  rw [he, iblk1_eq, iblk2_eq, iblk3_eq]
  exact out_at (m ((c : Thread nD τ).loc main_arg0)) (img t) (iblk m c 0 t) (m ((c : Thread nD τ).loc main_arg1))
    (m ((c : Thread nD τ).loc main_arg2)) (m ((c : Thread nD τ).loc main_arg3)) (iblk0_apply m c t) j
    (⟨(j 1).val, hj1⟩ : Fin 512) (⟨(j 2).val, hj2⟩ : Fin 128) rfl rfl

/-! ## The blocks tile the array -/

/-- Entry (n, h, c) of the output is in the block of step n. -/
theorem cover (i : S256x512x128.Idx) :
    ∃ t : Fin cfg0.N, (cfg0.win 4).flush t = true ∧ i ∈ ((cfg0.win 4).blk t).view.set := by
  have hi0 : (i 0).val < 256 := (i 0).isLt
  have hi1 : (i 1).val < 512 := (i 1).isLt
  have hi2 : (i 2).val < 128 := (i 2).isLt
  obtain ⟨t, ht⟩ : ∃ t : Fin cfg0.N, t.val = (i 0).val := ⟨Fin.cast N_0.symm (i 0), rfl⟩
  obtain ⟨-, -, -, -, -, -, -, -, -, -, e0, e1, e2⟩ := idx_facts t
  refine ⟨t, flush0_4 t, ?_⟩
  show i ∈ ((View.whole main_call0_v3).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

/-- After the grid the output array holds the specified result. -/
theorem final (c : Dev nD) : (dats m 0 c).arrAt 4 cfg0.N = G m c :=
  (dats m 0 c).arrAt_eq_of_cover 4 (G m c) (fun t _ => flushed_eq m c t) (fun i => cover i)

end Cert.ReferenceIdeal.RefBlocks

end
-- ==== Proof.RefRun.lean ====
/-
  The run of the one-image-per-step program, read: after the grid the [256, 512, 128] output array holds the specified
  result, and the one operation that follows reads it as [256, 512, 16, 8] — 128 lanes as 16 pixels of 8 channels —
  into the program's result.  The four argument arrays end as they were launched.
-/
import proofs.«106046_g2000301762116789_pallasbulk_831_2_alg».proof.Proof.RefBlocks
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The program's result after the operation that follows the grid: the specified result, reshaped. -/
theorem tail_v0 (c : Dev nD) :
    Pipeline.afterTail₀ cfgs (dats m) 0 (V0 m) [hostOps1] c main_v0
      = shapeCast S256x512x16x8 (RefBlocks.G m c) shapeCasts_S256x512x128_S256x512x16x8 := by
  unfold Pipeline.afterTail₀
  show StableHlo.after hostOps1 _ (Proc.devRef .tc main_v0) = _
  after_results
  rw [(Pipeline.withArrays_arr spec0 launch0.win.arr_inj c _ _ 4).trans (RefBlocks.final m c)]
  rfl

/-- Every weakly fair execution of the program ends with its result at the specified function of the launched
    arguments, reshaped to [256, 512, 16, 8], and with the arguments unchanged. -/
theorem run : θ_run (defs (F := Ideal)) (onTc (τ := τ) (main (F := Ideal))) ⟨m, fun _ => 0, ρ⟩ (fun r => ∀ c : Dev nD,
      r.2.mem ((c.tc : Thread nD τ).loc main_v0)
        = shapeCast S256x512x16x8 (Cert.Spec.G3 (m ((c.tc : Thread nD τ).loc main_arg0)) (m ((c.tc : Thread nD τ).loc main_arg1))
            (m ((c.tc : Thread nD τ).loc main_arg2)) (m ((c.tc : Thread nD τ).loc main_arg3))) shapeCasts_S256x512x128_S256x512x16x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v0 (Pipeline.mem_restRefs_of main_v0 (by decide) (by decide))).trans (tail_v0 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.ReferenceIdeal.RefValue

end
-- ==== Proof.lean ====
/-
  The certificate's proof.

  Both programs compute, for every image n, row h and lane c, the same function of the four argument arrays
  (Proof/Spec.lean): a 3×3 convolution written as three banded products over rows of 64 numbers with a zero row above and
  below the image, a bias, a leaky rectifier, a 1×1 convolution written as a product with a 128×128 matrix, a bias and a
  rectifier; both then reshape the [256, 512, 128] result to [256, 512, 16, 8].

  The reference pads the rows on the host and treats one image per grid point. The kernel treats four images per grid point:
  it lays the four images side by side on the lanes of a strip with zero rows above and below, and multiplies by
  block-diagonal copies of the two matrices that the host builds by writing the matrices into arrays of zeros. A row times a
  block-diagonal matrix only meets the diagonal block, since x · 0 = 0 for every extended real and sums may be regrouped
  freely; so each lane group of the packed product is the reference's product for one image, and no finiteness is needed.

  Kernel side: Proof/KerBody.lean (what one grid point stores, as a pure function of its input blocks), KerStrip.lean (the
  strip read entry by entry), KerPayload.lean (the arithmetic read entry by entry), KerPoint.lean (one point against the
  specification), KerHost*.lean (the arrays the host builds), KerBlocks.lean and KerRun.lean (from blocks to the result
  array, and the run). Reference side: RefHost.lean, RefPayload.lean, RefBlocks.lean, RefRun.lean.
-/
import proofs.«106046_g2000301762116789_pallasbulk_831_2_alg».proof.Defs
import proofs.«106046_g2000301762116789_pallasbulk_831_2_alg».proof.Proof.Gen.Kernel
import proofs.«106046_g2000301762116789_pallasbulk_831_2_alg».proof.Proof.Gen.Kernel.Frame
import proofs.«106046_g2000301762116789_pallasbulk_831_2_alg».proof.Proof.Gen.KernelIdeal
import proofs.«106046_g2000301762116789_pallasbulk_831_2_alg».proof.Proof.Gen.KernelIdeal.Frame
import proofs.«106046_g2000301762116789_pallasbulk_831_2_alg».proof.Proof.Gen.ReferenceIdeal
import proofs.«106046_g2000301762116789_pallasbulk_831_2_alg».proof.Proof.Gen.ReferenceIdeal.Frame
import proofs.«106046_g2000301762116789_pallasbulk_831_2_alg».proof.Proof.Gen.Pre_finite_inputs
import proofs.«106046_g2000301762116789_pallasbulk_831_2_alg».proof.Proof.KerRun
import proofs.«106046_g2000301762116789_pallasbulk_831_2_alg».proof.Proof.KerHostScatter
import proofs.«106046_g2000301762116789_pallasbulk_831_2_alg».proof.Proof.KerHostScatterW
import proofs.«106046_g2000301762116789_pallasbulk_831_2_alg».proof.Proof.RefRun
import Idealize.ShloMosaic.Adequacy
import Idealize.ShloMosaic.Init

noncomputable section

namespace Cert.Proof

open Idealize.ShloMosaic Idealize.SL.Sem

/-- The three programs run, fault nowhere and leave their arguments as they found them: the generated frames. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Over the extended reals both programs end with the specification's function of the arguments, reshaped; the arguments
    agree, so the results are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KerValue.run m ρ (fun c kh K C => Cert.KernelIdeal.HostPre.abd_apply m c kh K C)
    (fun c K C => Cert.KernelIdeal.HostPreW.w2bd_apply m c K C), ?_⟩
  refine (θ_run Cert.ReferenceIdeal.defs _ _).mono (fun _ h c => ⟨(h c).1.trans ?_, (h c).2⟩) (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
